-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41C80000#32 ((134217728 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x96x96 : Shape := ⟨4, ![4, 128, 96, 96]⟩
abbrev S4x1x96x96 : Shape := ⟨4, ![4, 1, 96, 96]⟩
abbrev S_ : Shape := ⟨0, ![]⟩

class Facts : Prop where
  bcast_S_S4x128x96x96 : S_.BroadcastsInDim S4x128x96x96 (![] : Fin 0 → Fin S4x128x96x96.rank)
  reducesTo_S4x128x96x96_S_d0_1_2_3 : S4x128x96x96.ReducesTo [0, 1, 2, 3] S_
  h_S_ : 0 < S_.numel

variable [Facts]

def fn {F : FTy → Type} [FloatOps F] (main_arg0 : FVec F S4x128x96x96 .f32) (main_arg1 : IVec S4x1x96x96 32) : IVec S_ 1 :=
  let main_v0 : FVec F S4x128x96x96 .f32 := Host.absf main_arg0
  let main_cst : FVec F S_ .f32 := constant S_ .f32 0x7F800000#32
  let main_v1 : FVec F S4x128x96x96 .f32 := broadcastInDim S4x128x96x96 ![] bcast_S_S4x128x96x96 main_cst
  let main_v2 : IVec S4x128x96x96 1 := cmpf .olt main_v0 main_v1
  let main_c : IVec S_ 1 := constantI S_ 1 1#1
  let main_v3 : IVec S_ 1 := (fun x v => Host.reduce IntOp.andi x v reducesTo_S4x128x96x96_S_d0_1_2_3 h_S_) main_v2 main_c
  main_v3
-- ==== Kernel.lean ====
abbrev S4x128x96x96 : Shape := ⟨4, ![4, 128, 96, 96]⟩
abbrev S4x1x96x96 : Shape := ⟨4, ![4, 1, 96, 96]⟩
abbrev S1x128x96x96 : Shape := ⟨4, ![1, 128, 96, 96]⟩
abbrev S128x96x96 : Shape := ⟨3, ![128, 96, 96]⟩
abbrev S96x96x128 : Shape := ⟨3, ![96, 96, 128]⟩
abbrev S9216x128 : Shape := ⟨2, ![9216, 128]⟩
abbrev S1x1x96x96 : Shape := ⟨4, ![1, 1, 96, 96]⟩
abbrev S96x96 : Shape := ⟨2, ![96, 96]⟩
abbrev S9216x1 : Shape := ⟨2, ![9216, 1]⟩
abbrev S1x9216 : Shape := ⟨2, ![1, 9216]⟩
abbrev S8x8x128 : Shape := ⟨3, ![8, 8, 128]⟩
abbrev S1152x128 : Shape := ⟨2, ![1152, 128]⟩
abbrev S2304x128 : Shape := ⟨2, ![2304, 128]⟩
abbrev S1152x1 : Shape := ⟨2, ![1152, 1]⟩
abbrev S1x2304 : Shape := ⟨2, ![1, 2304]⟩
abbrev S1x8x128 : Shape := ⟨3, ![1, 8, 128]⟩
abbrev S8x128 : Shape := ⟨2, ![8, 128]⟩
abbrev S128x2304 : Shape := ⟨2, ![128, 2304]⟩
abbrev S1152x2304 : Shape := ⟨2, ![1152, 2304]⟩
abbrev S1152 : Shape := ⟨1, ![1152]⟩
abbrev S1 : Shape := ⟨1, ![1]⟩
abbrev S1x1 : Shape := ⟨2, ![1, 1]⟩
abbrev S8x1x1 : Shape := ⟨3, ![8, 1, 1]⟩
abbrev S8 : Shape := ⟨1, ![8]⟩
abbrev S_ : Shape := ⟨0, ![]⟩

abbrev nBuf : Space → Nat
  | .hbm => 32
  | .vmem => 10
  | .smem => 0
  | _ => 0

abbrev bufTy : (tb : Table) → Fin (tcTables nBuf tb) → BufTy
  | .hbm, ⟨0, _⟩ => ⟨S4x128x96x96, .f32⟩
  | .hbm, ⟨1, _⟩ => ⟨S4x1x96x96, .i32⟩
  | .hbm, ⟨2, _⟩ => ⟨S1x128x96x96, .f32⟩
  | .hbm, ⟨3, _⟩ => ⟨S128x96x96, .f32⟩
  | .hbm, ⟨4, _⟩ => ⟨S96x96x128, .f32⟩
  | .hbm, ⟨5, _⟩ => ⟨S9216x128, .f32⟩
  | .hbm, ⟨6, _⟩ => ⟨S9216x128, .bf16⟩
  | .hbm, ⟨7, _⟩ => ⟨S1x128x96x96, .f32⟩
  | .hbm, ⟨8, _⟩ => ⟨S128x96x96, .f32⟩
  | .hbm, ⟨9, _⟩ => ⟨S96x96x128, .f32⟩
  | .hbm, ⟨10, _⟩ => ⟨S9216x128, .f32⟩
  | .hbm, ⟨11, _⟩ => ⟨S9216x128, .bf16⟩
  | .hbm, ⟨12, _⟩ => ⟨S1x1x96x96, .i32⟩
  | .hbm, ⟨13, _⟩ => ⟨S96x96, .i32⟩
  | .hbm, ⟨14, _⟩ => ⟨S9216x1, .i32⟩
  | .hbm, ⟨15, _⟩ => ⟨S1x1x96x96, .i32⟩
  | .hbm, ⟨16, _⟩ => ⟨S96x96, .i32⟩
  | .hbm, ⟨17, _⟩ => ⟨S1x9216, .i32⟩
  | .hbm, ⟨18, _⟩ => ⟨S8x8x128, .f32⟩
  | .hbm, ⟨19, _⟩ => ⟨S8x1x1, .f32⟩
  | .hbm, ⟨20, _⟩ => ⟨S8, .f32⟩
  | .hbm, ⟨21, _⟩ => ⟨S_, .f32⟩
  | .hbm, ⟨22, _⟩ => ⟨S_, .f32⟩
  | .hbm, ⟨23, _⟩ => ⟨S8x1x1, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1152x128, .bf16⟩
  | .local _ .vmem, ⟨1, _⟩ => ⟨S1152x128, .bf16⟩
  | .local _ .vmem, ⟨2, _⟩ => ⟨S2304x128, .bf16⟩
  | .local _ .vmem, ⟨3, _⟩ => ⟨S2304x128, .bf16⟩
  | .local _ .vmem, ⟨4, _⟩ => ⟨S1152x1, .i32⟩
  | .local _ .vmem, ⟨5, _⟩ => ⟨S1152x1, .i32⟩
  | .local _ .vmem, ⟨6, _⟩ => ⟨S1x2304, .i32⟩
  | .local _ .vmem, ⟨7, _⟩ => ⟨S1x2304, .i32⟩
  | .local _ .vmem, ⟨8, _⟩ => ⟨S1x8x128, .f32⟩
  | .local _ .vmem, ⟨9, _⟩ => ⟨S1x8x128, .f32⟩
  | _, _ => ⟨S4x128x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1152x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S4x128x96x96_S1x128x96x96_0_0_0_0 : S4x128x96x96.Slices ![0, 0, 0, 0] S1x128x96x96
  shapeCasts_S1x128x96x96_S128x96x96 : S1x128x96x96.ShapeCasts S128x96x96
  transposes_S128x96x96_S96x96x128_1_2_0 : S128x96x96.Transposes [1, 2, 0] S96x96x128
  shapeCasts_S96x96x128_S9216x128 : S96x96x128.ShapeCasts S9216x128
  bitsLt_bf16_f32 : FTy.bits .bf16 < FTy.bits .f32
  slices_S4x128x96x96_S1x128x96x96_1_0_0_0 : S4x128x96x96.Slices ![1, 0, 0, 0] S1x128x96x96
  slices_S4x1x96x96_S1x1x96x96_0_0_0_0 : S4x1x96x96.Slices ![0, 0, 0, 0] S1x1x96x96
  shapeCasts_S1x1x96x96_S96x96 : S1x1x96x96.ShapeCasts S96x96
  shapeCasts_S96x96_S9216x1 : S96x96.ShapeCasts S9216x1
  slices_S4x1x96x96_S1x1x96x96_1_0_0_0 : S4x1x96x96.Slices ![1, 0, 0, 0] S1x1x96x96
  shapeCasts_S96x96_S1x9216 : S96x96.ShapeCasts S1x9216
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  inb_S2304x128_S2304x128_0_0 : ∀ a, (![0, 0] : Fin 2 → Nat) a + S2304x128.size a ≤ S2304x128.size a
  h_S2304x128 : 0 < S2304x128.numel
  shapeCasts_S2304x128_S2304x128 : S2304x128.ShapeCasts S2304x128
  transposes_S2304x128_p1_0_S128x2304 : S2304x128.Transposes [1, 0] S128x2304
  inb_S1152x1_S1152x1_0_0 : ∀ a, (![0, 0] : Fin 2 → Nat) a + S1152x1.size a ≤ S1152x1.size a
  h_S1152x1 : 0 < S1152x1.numel
  shapeCasts_S1152x1_S1152x1 : S1152x1.ShapeCasts S1152x1
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1152x1_S1152x2304 : S1152x1.Broadcasts S1152x2304
  broadcasts_S1x2304_S1152x2304 : S1x2304.Broadcasts S1152x2304
  reduces_S1152x2304_S1152 : S1152x2304.Reduces [1] S1152
  shapeCasts_S1152_S1152x1 : S1152.ShapeCasts S1152x1
  reduces_S1152x1_S1 : S1152x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  slices_S8x8x128_S8x1x1_0_0_1 : S8x8x128.Slices ![0, 0, 1] S8x1x1
  dot_S1152x128_S128x2304_S1152x2304_1_0_0_1_n_n_wf : DotDims.WF S1152x128 S128x2304 S1152x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1152x128.size a ≤ S9216x128.size a
  hwx0_0 : ∀ i : grid0.Coords, EltTy.bits .bf16 = 32 ∨ (Rect.block (s := S9216x128) S1152x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2304x128.size a ≤ S9216x128.size a
  hwx0_1 : ∀ i : grid0.Coords, EltTy.bits .bf16 = 32 ∨ (Rect.block (s := S9216x128) S2304x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1152x1.size a ≤ S9216x1.size a
  hwx0_2 : ∀ i : grid0.Coords, EltTy.bits .i32 = 32 ∨ (Rect.block (s := S9216x1) S1152x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2304.size a ≤ S1x9216.size a
  hwx0_3 : ∀ i : grid0.Coords, EltTy.bits .i32 = 32 ∨ (Rect.block (s := S1x9216) S1x2304.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)

variable [Facts₀]

def dot_S1152x128_S128x2304_S1152x2304_1_0_0_1_n_n : DotDims S1152x128 S128x2304 S1152x2304 where
  lhsContracting := [1]
  rhsContracting := [0]
  lhsNonContracting := [0]
  rhsNonContracting := [1]
  lhsBatch := []
  rhsBatch := []
  wf := dot_S1152x128_S128x2304_S1152x2304_1_0_0_1_n_n_wf

abbrev win0_0 : Pipeline.Window sig grid0 :=
  Pipeline.Window.ofSpec (Memref.whole main_v4) S1152x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2304x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1152x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x2304.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x128x96x96 : Shape := ⟨4, ![4, 128, 96, 96]⟩
abbrev S4x1x96x96 : Shape := ⟨4, ![4, 1, 96, 96]⟩
abbrev S1x128x96x96 : Shape := ⟨4, ![1, 128, 96, 96]⟩
abbrev S128x96x96 : Shape := ⟨3, ![128, 96, 96]⟩
abbrev S96x96x128 : Shape := ⟨3, ![96, 96, 128]⟩
abbrev S9216x128 : Shape := ⟨2, ![9216, 128]⟩
abbrev S1x1x96x96 : Shape := ⟨4, ![1, 1, 96, 96]⟩
abbrev S96x96 : Shape := ⟨2, ![96, 96]⟩
abbrev S9216 : Shape := ⟨1, ![9216]⟩
abbrev S128x9216 : Shape := ⟨2, ![128, 9216]⟩
abbrev S9216x9216 : Shape := ⟨2, ![9216, 9216]⟩
abbrev S_ : Shape := ⟨0, ![]⟩
abbrev S9216x1 : Shape := ⟨2, ![9216, 1]⟩
abbrev S1x9216 : Shape := ⟨2, ![1, 9216]⟩

abbrev nBuf : Space → Nat
  | .hbm => 39
  | .vmem => 0
  | .smem => 0
  | _ => 0

abbrev bufTy : (tb : Table) → Fin (tcTables nBuf tb) → BufTy
  | .hbm, ⟨0, _⟩ => ⟨S4x128x96x96, .f32⟩
  | .hbm, ⟨1, _⟩ => ⟨S4x1x96x96, .i32⟩
  | .hbm, ⟨2, _⟩ => ⟨S1x128x96x96, .f32⟩
  | .hbm, ⟨3, _⟩ => ⟨S128x96x96, .f32⟩
  | .hbm, ⟨4, _⟩ => ⟨S96x96x128, .f32⟩
  | .hbm, ⟨5, _⟩ => ⟨S9216x128, .f32⟩
  | .hbm, ⟨6, _⟩ => ⟨S1x128x96x96, .f32⟩
  | .hbm, ⟨7, _⟩ => ⟨S128x96x96, .f32⟩
  | .hbm, ⟨8, _⟩ => ⟨S96x96x128, .f32⟩
  | .hbm, ⟨9, _⟩ => ⟨S9216x128, .f32⟩
  | .hbm, ⟨10, _⟩ => ⟨S1x1x96x96, .i32⟩
  | .hbm, ⟨11, _⟩ => ⟨S96x96, .i32⟩
  | .hbm, ⟨12, _⟩ => ⟨S9216, .i32⟩
  | .hbm, ⟨13, _⟩ => ⟨S1x1x96x96, .i32⟩
  | .hbm, ⟨14, _⟩ => ⟨S96x96, .i32⟩
  | .hbm, ⟨15, _⟩ => ⟨S9216, .i32⟩
  | .hbm, ⟨16, _⟩ => ⟨S128x9216, .f32⟩
  | .hbm, ⟨17, _⟩ => ⟨S9216x9216, .f32⟩
  | .hbm, ⟨18, _⟩ => ⟨S_, .f32⟩
  | .hbm, ⟨19, _⟩ => ⟨S9216x9216, .f32⟩
  | .hbm, ⟨20, _⟩ => ⟨S9216x9216, .f32⟩
  | .hbm, ⟨21, _⟩ => ⟨S9216x9216, .f32⟩
  | .hbm, ⟨22, _⟩ => ⟨S9216x1, .i32⟩
  | .hbm, ⟨23, _⟩ => ⟨S1x9216, .i32⟩
  | .hbm, ⟨24, _⟩ => ⟨S9216x9216, .i32⟩
  | .hbm, ⟨25, _⟩ => ⟨S9216x9216, .i32⟩
  | .hbm, ⟨26, _⟩ => ⟨S9216x9216, .i1⟩
  | .hbm, ⟨27, _⟩ => ⟨S_, .f32⟩
  | .hbm, ⟨28, _⟩ => ⟨S9216x9216, .f32⟩
  | .hbm, ⟨29, _⟩ => ⟨S9216x9216, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4x128x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  slices_S4x128x96x96_S1x128x96x96_0_0_0_0 : S4x128x96x96.Slices ![0, 0, 0, 0] S1x128x96x96
  shapeCasts_S1x128x96x96_S128x96x96 : S1x128x96x96.ShapeCasts S128x96x96
  transposes_S128x96x96_S96x96x128_1_2_0 : S128x96x96.Transposes [1, 2, 0] S96x96x128
  shapeCasts_S96x96x128_S9216x128 : S96x96x128.ShapeCasts S9216x128
  slices_S4x128x96x96_S1x128x96x96_1_0_0_0 : S4x128x96x96.Slices ![1, 0, 0, 0] S1x128x96x96
  slices_S4x1x96x96_S1x1x96x96_0_0_0_0 : S4x1x96x96.Slices ![0, 0, 0, 0] S1x1x96x96
  shapeCasts_S1x1x96x96_S96x96 : S1x1x96x96.ShapeCasts S96x96
  shapeCasts_S96x96_S9216 : S96x96.ShapeCasts S9216
  slices_S4x1x96x96_S1x1x96x96_1_0_0_0 : S4x1x96x96.Slices ![1, 0, 0, 0] S1x1x96x96
  transposes_S9216x128_S128x9216_1_0 : S9216x128.Transposes [1, 0] S128x9216
  bcast_S_S9216x9216 : S_.BroadcastsInDim S9216x9216 (![] : Fin 0 → Fin S9216x9216.rank)
  bcast_S9216_S9216x1_0 : S9216.BroadcastsInDim S9216x1 (![0] : Fin 1 → Fin S9216x1.rank)
  bcast_S9216_S1x9216_1 : S9216.BroadcastsInDim S1x9216 (![1] : Fin 1 → Fin S1x9216.rank)
  bcast_S9216x1_S9216x9216_0_1 : S9216x1.BroadcastsInDim S9216x9216 (![0, 1] : Fin 2 → Fin S9216x9216.rank)
  bcast_S1x9216_S9216x9216_0_1 : S1x9216.BroadcastsInDim S9216x9216 (![0, 1] : Fin 2 → Fin S9216x9216.rank)
  reducesTo_S9216x9216_S_d0_1 : S9216x9216.ReducesTo [0, 1] S_
  h_S_ : 0 < S_.numel
  dot_S9216x128_S128x9216_S9216x9216_1_0_0_1_n_n_wf : DotDims.WF S9216x128 S128x9216 S9216x9216 [1] [0] [0] [1] [] []

variable [Facts₀]

def dot_S9216x128_S128x9216_S9216x9216_1_0_0_1_n_n : DotDims S9216x128 S128x9216 S9216x9216 where
  lhsContracting := [1]
  rhsContracting := [0]
  lhsNonContracting := [0]
  rhsNonContracting := [1]
  lhsBatch := []
  rhsBatch := []
  wf := dot_S9216x128_S128x9216_S9216x9216_1_0_0_1_n_n_wf

class Facts : Prop extends Facts₀ where

variable [Facts]
-- ==== Proof.CaseValues.lean ====
/-
  What one run of the kernel body leaves in the output's staging block, as a value.

  The body computes, from its four input blocks, two numbers — the sum over the tile of the similarities
  whose two labels agree, and the sum over the tile of all similarities — places the first at entry
  (0, 0, 0) and the second at entry (0, 0, 1) of an otherwise zero [1, 8, 128] block, and ADDS that block to the
  block it finds in the output's staging buffer. At the first column tile of a row of tiles it first overwrites the
  buffer with zeros, so what it finds there is the zero block; at every later column tile it finds what the tile
  before left. Both cases are therefore one function, `step`, of the input blocks and the block found.
-/
import proofs.«152631_j46531675685457_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- One run of the body: the block found, `acc`, plus the block holding the tile's two sums at entries
    (0, 0, 0) and (0, 0, 1) and zero elsewhere. -/
def step (x0 : Vec F S1152x128 .bf16) (x1 : Vec F S2304x128 .bf16) (x2 : Vec F S1152x1 .i32) (x3 : Vec F S1x2304 .i32)
    (acc : Vec F S1x8x128 .f32) : Vec F S1x8x128 .f32 :=
  k0_pay1 (k0_pay4 x0 x1 x2 x3) (k0_pay5 x0 x1) (iota .tc S8x128 32 [0] iota_S8x128_d0_w32)
    (iota .tc S8x128 32 [1] iota_S8x128_d1_w32) k0_pay6 k0_pay7 acc

/-- The zero block the body writes at the first column tile of a row of tiles. -/
abbrev zeroBlock : Vec F S1x8x128 .f32 := k0_pay2

/-- A later column tile: the body adds its tile's block to what the tile before left, `xo`. -/
theorem out_B (c : Dev nD) (i : grid0.Coords) (a2 : Memref sig .tc .vmem S1152x128 .bf16) (h2 : a2.IsWhole)
    (a3 : Memref sig .tc .vmem S2304x128 .bf16) (h3 : a3.IsWhole) (a4 : Memref sig .tc .vmem S1152x1 .i32) (h4 : a4.IsWhole)
    (a5 : Memref sig .tc .vmem S1x2304 .i32) (h5 : a5.IsWhole) (a6 : Memref sig .tc .vmem S1x8x128 .f32) (h6 : a6.IsWhole)
    (hc : ¬cond0_0 i) (x0 : Vec F S1152x128 .bf16) (x1 : Vec F S2304x128 .bf16) (x2 : Vec F S1152x1 .i32)
    (x3 : Vec F S1x2304 .i32) (xo : Vec F S1x8x128 .f32) :
    out0_B_4 c i a2 h2 a3 h3 a4 h4 a5 h5 a6 h6 hc x0 x1 x2 x3 xo = step x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1152x128) hz2, View.ld_unit_zero (S := S2304x128) hz2, View.ld_unit_zero (S := S1152x1) hz2,
    View.ld_unit_zero (S := S1x2304) hz2, View.ld_unit_zero (S := S1x8x128) hz3]
  rfl

/-- The first column tile: the body overwrites the buffer with the zero block, reads it back, and adds its tile's
    block to it. -/
theorem out_A (c : Dev nD) (i : grid0.Coords) (a2 : Memref sig .tc .vmem S1152x128 .bf16) (h2 : a2.IsWhole)
    (a3 : Memref sig .tc .vmem S2304x128 .bf16) (h3 : a3.IsWhole) (a4 : Memref sig .tc .vmem S1152x1 .i32) (h4 : a4.IsWhole)
    (a5 : Memref sig .tc .vmem S1x2304 .i32) (h5 : a5.IsWhole) (a6 : Memref sig .tc .vmem S1x8x128 .f32) (h6 : a6.IsWhole)
    (hc : cond0_0 i) (x0 : Vec F S1152x128 .bf16) (x1 : Vec F S2304x128 .bf16) (x2 : Vec F S1152x1 .i32)
    (x3 : Vec F S1x2304 .i32) :
    out0_A_4 c i a2 h2 a3 h3 a4 h4 a5 h5 a6 h6 hc x0 x1 x2 x3 = step x0 x1 x2 x3 zeroBlock := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S1152x128) hz2, View.ld_unit_zero (S := S2304x128) hz2, View.ld_unit_zero (S := S1152x1) hz2,
    View.ld_unit_zero (S := S1x2304) hz2, View.ld_unit_zero (S := S1x8x128) hz3]
  rfl

end Cert.KernelIdeal.Tile

end
-- ==== Proof.StepValue.lean ====
/-
  One run of the kernel body at an entry of the output block, over the extended reals.

  The body's result block is the block it found plus an ADDEND block of shape [8, 128] (carried as [1, 8, 128]): a
  select on "row 0 and column 0" picks the tile's sum of kept similarities, a second select on "row 0 and column 1"
  picks the tile's sum of all similarities, and every other entry is zero. So entry (u, a, b) of the result is the
  found block's entry plus the addend's entry (a, b); the addend's entry (0, 0) is the first of the tile's two sums and
  its entry (0, 1) the second. The zero block is zero at every entry.
-/
import proofs.«152631_j46531675685457_2_alg».proof.Proof.CaseValues
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen

/-- The block the body adds to what it finds: the tile's two sums at entries (0, 0) and (0, 1), zero elsewhere. -/
def addend (x0 : Vec Ideal S1152x128 .bf16) (x1 : Vec Ideal S2304x128 .bf16) (x2 : Vec Ideal S1152x1 .i32)
    (x3 : Vec Ideal S1x2304 .i32) : Vec Ideal S8x128 .f32 :=
  select k0_pay6
    (broadcastTo S8x128 (shapeCast S1x1 (k0_pay4 (F := Ideal) x0 x1 x2 x3) shapeCasts_S1x1_S1x1) broadcasts_S1x1_S8x128)
    (select (andi (cmpi .eq (iota .tc S8x128 32 [0] iota_S8x128_d0_w32) k0_pay7)
        (cmpi .eq (iota .tc S8x128 32 [1] iota_S8x128_d1_w32) (broadcast S8x128 1#32)))
      (broadcastTo S8x128 (shapeCast S1x1 (k0_pay5 (F := Ideal) x0 x1) shapeCasts_S1x1_S1x1) broadcasts_S1x1_S8x128)
      (broadcast S8x128 (Scalar.ofBits (F := Ideal) .f32 0x00000000#32)))

/-- The body's result at an entry: what it found there plus the addend's entry. -/
theorem step_apply (x0 : Vec Ideal S1152x128 .bf16) (x1 : Vec Ideal S2304x128 .bf16) (x2 : Vec Ideal S1152x1 .i32)
    (x3 : Vec Ideal S1x2304 .i32) (acc : Vec Ideal S1x8x128 .f32) (u : Fin 1) (a : Fin 8) (b : Fin 128) :
    step x0 x1 x2 x3 acc (ix3 u a b) = acc (ix3 u a b) + addend x0 x1 x2 x3 (ix2 a b) := by
  obtain rfl : u = 0 := Subsingleton.elim _ _
  unfold step k0_pay1
  (try dsimp only)
  rw [shapeCast_ab_1ab_apply]
  show shapeCast S8x128 acc _ (ix2 a b) + _ = _
  rw [shapeCast_1ab_ab_apply]
  rfl

/-- The zero block is zero at every entry. -/
theorem zeroBlock_apply (u : Fin 1) (a : Fin 8) (b : Fin 128) : zeroBlock (F := Ideal) (ix3 u a b) = 0 := by
  unfold zeroBlock k0_pay2
  (try dsimp only)
  rw [shapeCast_ab_1ab_apply]
  exact Ideal.ofBits_zero_f32

/-- A [1, 1] entry spread over [8, 128] reads that entry everywhere. -/
theorem bcast11 (v : FVec Ideal S1x1 .f32) (a : Fin 8) (b : Fin 128) :
    broadcastTo S8x128 v broadcasts_S1x1_S8x128 (ix2 a b) = v (ix2 (0 : Fin 1) (0 : Fin 1)) := by
  refine broadcastTo_apply v _ (ix2 a b) (ix2 (0 : Fin 1) (0 : Fin 1)) fun ax => ?_
  match ax with
  | ⟨0, _⟩ => show 0 = if (1 : ℕ) = 1 then 0 else _; rw [if_pos rfl]
  | ⟨1, _⟩ => show 0 = if (1 : ℕ) = 1 then 0 else _; rw [if_pos rfl]

/-- Entry (0, 0) of the addend is the tile's sum of kept similarities. -/
theorem addend_00 (x0 : Vec Ideal S1152x128 .bf16) (x1 : Vec Ideal S2304x128 .bf16) (x2 : Vec Ideal S1152x1 .i32)
    (x3 : Vec Ideal S1x2304 .i32) :
    addend x0 x1 x2 x3 (ix2 (0 : Fin 8) (0 : Fin 128)) = k0_pay4 (F := Ideal) x0 x1 x2 x3 (ix2 (0 : Fin 1) (0 : Fin 1)) := by
  have hc : k0_pay6 (ix2 (0 : Fin 8) (0 : Fin 128)) = 1#1 := by
    unfold k0_pay6
    (try dsimp only)
    show IntOp.andi (IntOp.cmpi .eq (iota .tc S8x128 32 [0] _ (ix2 (0 : Fin 8) (0 : Fin 128))) 0#32)
      (IntOp.cmpi .eq (iota .tc S8x128 32 [1] _ (ix2 (0 : Fin 8) (0 : Fin 128))) 0#32) = 1#1
    rw [iota_single_apply, iota_single_apply]
    decide
  unfold addend
  rw [select_apply, hc, select_one, bcast11, shapeCast_self]

/-- Entry (0, 1) of the addend is the tile's sum of all similarities. -/
theorem addend_01 (x0 : Vec Ideal S1152x128 .bf16) (x1 : Vec Ideal S2304x128 .bf16) (x2 : Vec Ideal S1152x1 .i32)
    (x3 : Vec Ideal S1x2304 .i32) :
    addend x0 x1 x2 x3 (ix2 (0 : Fin 8) (1 : Fin 128)) = k0_pay5 (F := Ideal) x0 x1 (ix2 (0 : Fin 1) (0 : Fin 1)) := by
  have hc : k0_pay6 (ix2 (0 : Fin 8) (1 : Fin 128)) = 0#1 := by
    unfold k0_pay6
    (try dsimp only)
    show IntOp.andi (IntOp.cmpi .eq (iota .tc S8x128 32 [0] _ (ix2 (0 : Fin 8) (1 : Fin 128))) 0#32)
      (IntOp.cmpi .eq (iota .tc S8x128 32 [1] _ (ix2 (0 : Fin 8) (1 : Fin 128))) 0#32) = 0#1
    rw [iota_single_apply, iota_single_apply]
    decide
  have hd : andi (cmpi .eq (iota .tc S8x128 32 [0] iota_S8x128_d0_w32) k0_pay7)
      (cmpi .eq (iota .tc S8x128 32 [1] iota_S8x128_d1_w32) (broadcast S8x128 1#32)) (ix2 (0 : Fin 8) (1 : Fin 128)) = 1#1 := by
    unfold k0_pay7
    (try dsimp only)
    show IntOp.andi (IntOp.cmpi .eq (iota .tc S8x128 32 [0] _ (ix2 (0 : Fin 8) (1 : Fin 128))) 0#32)
      (IntOp.cmpi .eq (iota .tc S8x128 32 [1] _ (ix2 (0 : Fin 8) (1 : Fin 128))) 1#32) = 1#1
    rw [iota_single_apply, iota_single_apply]
    decide
  unfold addend
  rw [select_apply, hc, select_zero, select_apply, hd, select_one, bcast11, shapeCast_self]

end Cert.KernelIdeal.Tile

end
-- ==== Proof.Accumulate.lean ====
/-
  What the kernel's output array holds after the whole grid.

  The grid is 8 rows of tiles by 4 column tiles, visited row by row: point t is tile (t / 4, t % 4). Output block i
  (one [1, 8, 128] block per row of tiles) stays in its staging buffer through the four column tiles of row i and is
  written back after the last. At the first column tile the body resets the block to zero and adds its tile's addend;
  at each later one it adds its addend to what the tile before left. So after column tile j of row i the block is, entry
  by entry, zero plus the sum of the addends of tiles (i, 0) … (i, j) — a fold over a run of consecutive points, unrolled
  at an entry into a finite sum — and the array ends holding, in block i, the sum over all four column tiles of row i.
  The eight written-back blocks tile the [8, 8, 128] array.
-/
import proofs.«152631_j46531675685457_2_alg».proof.Proof.StepValue
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Tile

variable (m : (ℓ : Loc nD τ sig) → Buf (Elt Ideal) ℓ)

/-- The (row, column) part of an entry of a [1, 8, 128] block. -/
abbrev rc (i : S1x8x128.Idx) : S8x128.Idx := ix2 (i 1 : Fin 8) (i 2 : Fin 128)

/-- The body's result at any entry: what it found there plus the addend's entry. -/
theorem step_at (x0 : Vec Ideal S1152x128 .bf16) (x1 : Vec Ideal S2304x128 .bf16) (x2 : Vec Ideal S1152x1 .i32)
    (x3 : Vec Ideal S1x2304 .i32) (acc : Vec Ideal S1x8x128 .f32) (i : S1x8x128.Idx) :
    step x0 x1 x2 x3 acc i = acc i + addend x0 x1 x2 x3 (rc i) := by
  obtain ⟨u, a, b, rfl⟩ : ∃ (u : Fin 1) (a : Fin 8) (b : Fin 128), i = ix3 u a b := ⟨i 0, i 1, i 2, eq_ix3 i⟩
  exact step_apply x0 x1 x2 x3 acc u a b

/-- The addend of point n's tile at a block entry (zero past the grid, where it is never used). -/
def addAt (c : Dev nD) (n : ℕ) (i : S1x8x128.Idx) : EReal :=
  if h : n < cfg0.N then
    addend (iblk m c 0 ⟨n, h⟩) (iblk m c 1 ⟨n, h⟩) (iblk m c 2 ⟨n, h⟩) (iblk m c 3 ⟨n, h⟩) (rc i)
  else 0

/-- The block after the first column tile of a row of tiles, -/
def resetAt (c : Dev nD) (n : ℕ) (h : n < cfg0.N) : Vec Ideal S1x8x128 .f32 :=
  step (iblk m c 0 ⟨n, h⟩) (iblk m c 1 ⟨n, h⟩) (iblk m c 2 ⟨n, h⟩) (iblk m c 3 ⟨n, h⟩) zeroBlock
/-- and after a later one, from what the tile before left. -/
def stepAt (c : Dev nD) (n : ℕ) (h : n < cfg0.N) (acc : Vec Ideal S1x8x128 .f32) : Vec Ideal S1x8x128 .f32 :=
  step (iblk m c 0 ⟨n, h⟩) (iblk m c 1 ⟨n, h⟩) (iblk m c 2 ⟨n, h⟩) (iblk m c 3 ⟨n, h⟩) acc

theorem outsAt_reset (c : Dev nD) (n : ℕ) (h : n < cfg0.N) (hn : n % 4 = 0) : outsAt0 m c n h = resetAt m c n h :=
  (outsAt0_A m c ⟨n, h⟩ hn).trans
    (out_A (F := Ideal) c (grid0.coords ⟨n, h⟩) (ms0_0 ⟨n, h⟩) (hs0_0 ⟨n, h⟩) (ms0_1 ⟨n, h⟩) (hs0_1 ⟨n, h⟩) (ms0_2 ⟨n, h⟩)
      (hs0_2 ⟨n, h⟩) (ms0_3 ⟨n, h⟩) (hs0_3 ⟨n, h⟩) (ms0_4 ⟨n, h⟩) (hs0_4 ⟨n, h⟩) ((hcond0_0 ⟨n, h⟩).mpr hn)
      (iblk m c 0 ⟨n, h⟩) (iblk m c 1 ⟨n, h⟩) (iblk m c 2 ⟨n, h⟩) (iblk m c 3 ⟨n, h⟩))

theorem outsAt_step (c : Dev nD) (n : ℕ) (h : n + 1 < cfg0.N) (hn : ¬(n + 1) % 4 = 0) :
    outsAt0 m c (n + 1) h = stepAt m c (n + 1) h (outsAt0 m c n (Nat.lt_of_succ_lt h)) :=
  (outsAt0_B m c ⟨n + 1, h⟩ hn).trans
    (out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hc => hn ((hcond0_0 ⟨n + 1, h⟩).mp hc))
      (iblk m c 0 ⟨n + 1, h⟩) (iblk m c 1 ⟨n + 1, h⟩) (iblk m c 2 ⟨n + 1, h⟩) (iblk m c 3 ⟨n + 1, h⟩)
      (outsAt0 m c n (Nat.lt_of_succ_lt h)))

/-- After point t the output's staging block is, entry by entry, zero plus the addends of the points of t's row of
    tiles up to t. -/
theorem outsAt_apply (c : Dev nD) (t : ℕ) (ht : t < cfg0.N) (i : S1x8x128.Idx) :
    outsAt0 m c t ht i = zeroBlock (F := Ideal) i + ∑ s ∈ Finset.range (t % 4 + 1), addAt m c (4 * (t / 4) + s) i := by
  have h' : 4 * (t / 4) + t % 4 < cfg0.N := by rw [Nat.div_add_mod]; exact ht
  rw [Pipeline.eq_accAt_of_mod (outsAt0 m c) 4 (resetAt m c) (stepAt m c) (fun n h hn => outsAt_reset m c n h hn)
    (fun n h hn => outsAt_step m c n h hn) (by norm_num) t ht h']
  exact Pipeline.accAt_add_apply (ι := S1x8x128.Idx) (β := EReal) (resetAt m c) (stepAt m c)
    (fun i => zeroBlock (F := Ideal) i) (addAt m c) (4 * (t / 4)) 3
    (fun h i => by unfold resetAt addAt; rw [dif_pos h]; exact step_at _ _ _ _ _ i)
    (fun n h acc i _ _ => by unfold stepAt addAt; rw [dif_pos h]; exact step_at _ _ _ _ acc i)
    (t % 4) (by have := Nat.mod_lt t (show 0 < 4 by norm_num); omega) h' i

/-! ## The array after the run -/

/-- The block entry an entry of the array falls on. -/
abbrev blkOf (i3 : S8x8x128.Idx) : S1x8x128.Idx := ix3 (0 : Fin 1) (i3 1 : Fin 8) (i3 2 : Fin 128)

/-- What the output array ends holding: in block i, zero plus the addends of the four tiles of row i. -/
def final (c : Dev nD) : Buf (Elt Ideal) ((c : Thread nD τ).loc main_v16) := fun i3 =>
  zeroBlock (F := Ideal) (blkOf i3) + ∑ s ∈ Finset.range 4, addAt m c (4 * (i3 0).val + s) (blkOf i3)

/-- The output window's index map, decided over the grid: point t writes block t / 4. -/
theorem idx_facts4 : ∀ t : Fin cfg0.N, win0_4.index t (0 : Fin 3) = t.val / 4 ∧ win0_4.index t (1 : Fin 3) = 0
    ∧ win0_4.index t (2 : Fin 3) = 0 :=
  (by decide +kernel : ∀ t : Fin grid0.N, _)

/-- What a writing-back point writes is its block of `final`. -/
theorem flushed_eq (c : Dev nD) (t : Fin cfg0.N) (hf : (cfg0.win 4).flush t = true) :
    (dats m 0 c).flushed 4 t = ((cfg0.win 4).blk t).view.read (Elt Ideal) (final m c) := by
  have h3 : t.val % 4 = 3 := (flush0_4 t).mp hf
  obtain ⟨e0, e1, e2⟩ := idx_facts4 t
  show (cfg0.win 4).cut (grid0.coords t) ((dats m 0 c).after 4 t) = _
  rw [after0_4]
  funext y
  rw [View.read_apply]
  show outsAt0 m c t.val t.isLt y = final m c (((cfg0.win 4).blk t).view.emb y)
  rw [outsAt_apply, h3]
  unfold final
  have hb : blkOf (((cfg0.win 4).blk t).view.emb y) = y := by
    funext a; apply Fin.ext
    match a with
    | ⟨0, _⟩ => show 0 = (y 0).val; have : (y 0).val < 1 := (y 0).isLt; omega
    | ⟨1, _⟩ => show win0_4.index t (1 : Fin 3) * 8 + 1 * (y 1).val = (y 1).val; rw [e1]; omega
    | ⟨2, _⟩ => show win0_4.index t (2 : Fin 3) * 128 + 1 * (y 2).val = (y 2).val; rw [e2]; omega
  have h0 : ((((cfg0.win 4).blk t).view.emb y) 0).val = t.val / 4 := by
    show win0_4.index t (0 : Fin 3) * 1 + 1 * (y 0).val = t.val / 4
    have : (y 0).val < 1 := (y 0).isLt
    rw [e0]; omega
  rw [hb, h0]

/-- An entry of the array is in point t's block iff each coordinate is in the block's range on its axis. -/
theorem mem_blk4 (t : Fin cfg0.N) (i : S8x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v16).slice (win0_4.rect t)).set ↔ _
  rw [View.set_slice_whole, Rect.mem_set_unit]
  exact Iff.rfl

/-- Every entry of the array lies in the block written back after the last column tile of its row of tiles. -/
theorem cover (i : S8x8x128.Idx) :
    ∃ t : Fin cfg0.N, (cfg0.win 4).flush t = true ∧ i ∈ ((cfg0.win 4).blk t).view.set := by
  have hN : cfg0.N = 32 := N_0
  have hi0 : (i 0).val < 8 := (i 0).isLt
  have hi1 : (i 1).val < 8 := (i 1).isLt
  have hi2 : (i 2).val < 128 := (i 2).isLt
  have hlt : 4 * (i 0).val + 3 < cfg0.N := by rw [hN]; omega
  refine ⟨⟨4 * (i 0).val + 3, hlt⟩, (flush0_4 _).mpr (by show (4 * (i 0).val + 3) % 4 = 3; omega), ?_⟩
  rw [mem_blk4]
  obtain ⟨e0, e1, e2⟩ := idx_facts4 ⟨4 * (i 0).val + 3, hlt⟩
  have e0' : win0_4.index ⟨4 * (i 0).val + 3, hlt⟩ (0 : Fin 3) = (i 0).val := by rw [e0]; show (4 * (i 0).val + 3) / 4 = _; omega
  intro a
  match a with
  | ⟨0, _⟩ =>
    show win0_4.index ⟨4 * (i 0).val + 3, hlt⟩ (0 : Fin 3) * 1 ≤ (i 0).val
      ∧ (i 0).val < win0_4.index ⟨4 * (i 0).val + 3, hlt⟩ (0 : Fin 3) * 1 + 1
    rw [e0']; omega
  | ⟨1, _⟩ =>
    show win0_4.index ⟨4 * (i 0).val + 3, hlt⟩ (1 : Fin 3) * 8 ≤ (i 1).val
      ∧ (i 1).val < win0_4.index ⟨4 * (i 0).val + 3, hlt⟩ (1 : Fin 3) * 8 + 8
    rw [e1]; omega
  | ⟨2, _⟩ =>
    show win0_4.index ⟨4 * (i 0).val + 3, hlt⟩ (2 : Fin 3) * 128 ≤ (i 2).val
      ∧ (i 2).val < win0_4.index ⟨4 * (i 0).val + 3, hlt⟩ (2 : Fin 3) * 128 + 128
    rw [e2]; omega

/-- The output array after the run. -/
theorem final_eq (c : Dev nD) : (dats m 0 c).arrAt 4 cfg0.N = final m c :=
  (dats m 0 c).arrAt_eq_of_cover 4 (final m c) (flushed_eq m c) cover

end Cert.KernelIdeal.Acc

end
-- ==== Proof.Spec.lean ====
/-
  The mathematics both programs share, over the extended reals, with no program in sight.

  Two [9216, 128] matrices A and B and two label vectors give a [9216, 9216] table of similarities
      sim(r, c) = exp((Σ_k A(r,k)·B(c,k)) · (1/T)),
  of which two totals are taken: over all entries, and over the entries whose row label equals the column label. One
  program divides the inner product by the temperature's float word D = 5368709/134217728; the other multiplies it by the
  reciprocal, which its statement reads as exactly 1/D = 134217728/5368709. On the extended reals a quotient by a nonzero
  real IS the product with its reciprocal, at the infinities too, so the two are one function (`div_D`).

  One program sums the whole table at once; the other cuts it into 8 × 4 tiles of 1152 × 2304 entries, sums each tile,
  adds the four tiles of a row of tiles, and adds the eight rows of tiles. Sums over finite index sets in a commutative
  monoid do not depend on grouping or order, so the two agree (`sum_tiles`); the extended reals under + are such a
  monoid, infinities included, and no finiteness is asked of anything.
-/
import Idealize.ShloMosaic.PureOps.Ideal
import Idealize.ShloMosaic.PureOps.Ideal.Laws
import Idealize.ShloMosaic.Lib.ValueIdx

noncomputable section

open scoped BigOperators

namespace Cert.SupCon

open Idealize.ShloMosaic

/-- The reciprocal of the temperature's float word: 1/D with D = 5368709/134217728. -/
def invT : EReal := ((134217728 / 5368709 : ℝ) : EReal)

/-- The temperature's float word denotes the real 5368709/134217728. -/
theorem ofBits_D : Ideal.ofBits .f32 0x3D23D70A#32 = ((5368709 / 134217728 : ℝ) : EReal) := by
  simp [Ideal.ofBits, Ideal.ieee, -EReal.coe_mul]; norm_num

/-- Dividing by the temperature's word is multiplying by its reciprocal, on every extended real. -/
theorem div_D (x : EReal) : Ideal.div x (Ideal.ofBits .f32 0x3D23D70A#32) = x * invT := by
  rw [ofBits_D, Ideal.div_coe (by norm_num : (5368709 / 134217728 : ℝ) ≠ 0)]
  unfold invT
  rw [show (1 / (5368709 / 134217728 : ℝ)) = (134217728 / 5368709 : ℝ) by norm_num]

/-- One similarity: the exponential of the inner product of a row of A and a row of B, scaled by 1/D. -/
def sim (a b : Fin 128 → EReal) : EReal := Ideal.exp ((∑ k, a k * b k) * invT)

/-- A similarity kept where the two labels agree, zero where they differ. -/
def kept (l1 l2 : BitVec 32) (e : EReal) : EReal :=
  Scalar.select (IntOp.cmpi .eq l1 l2) e (Ideal.ofBits .f32 0x00000000#32)

variable {β : Type*} [AddCommMonoid β]

/-- A sum over n = a·b consecutive naturals is the sum over a blocks of b consecutive ones. -/
theorem sum_blocks (n a b : ℕ) (h : n = a * b) (f : ℕ → β) :
    ∑ r : Fin n, f r.val = ∑ i : Fin a, ∑ p : Fin b, f (b * i.val + p.val) := by
  subst h
  rw [← Equiv.sum_comp finProdFinEquiv (fun r : Fin (a * b) => f r.val), Fintype.sum_prod_type]
  refine Finset.sum_congr rfl fun i _ => Finset.sum_congr rfl fun p _ => ?_
  show f (finProdFinEquiv (i, p)).val = _
  rw [finProdFinEquiv_apply_val, Nat.add_comm]

/-- The whole [9216, 9216] table summed at once is the sum over the 8 rows of tiles, the 4 tiles of each, and the
    1152 × 2304 entries of each tile. -/
theorem sum_tiles (f : ℕ → ℕ → β) :
    ∑ r : Fin 9216, ∑ c : Fin 9216, f r.val c.val
      = ∑ i : Fin 8, ∑ s ∈ Finset.range 4, ∑ p : Fin 1152, ∑ q : Fin 2304, f (1152 * i.val + p.val) (2304 * s + q.val) := by
  have hrow : ∀ g : ℕ → β, ∑ r : Fin 9216, g r.val = ∑ i : Fin 8, ∑ p : Fin 1152, g (1152 * i.val + p.val) :=
    fun g => sum_blocks 9216 8 1152 (by norm_num) g
  have hcol : ∀ g : ℕ → β, ∑ c : Fin 9216, g c.val = ∑ s : Fin 4, ∑ q : Fin 2304, g (2304 * s.val + q.val) :=
    fun g => sum_blocks 9216 4 2304 (by norm_num) g
  calc ∑ r : Fin 9216, ∑ c : Fin 9216, f r.val c.val
      = ∑ i : Fin 8, ∑ p : Fin 1152, ∑ c : Fin 9216, f (1152 * i.val + p.val) c.val :=
        hrow (fun r => ∑ c : Fin 9216, f r c.val)
    _ = ∑ i : Fin 8, ∑ p : Fin 1152, ∑ s : Fin 4, ∑ q : Fin 2304, f (1152 * i.val + p.val) (2304 * s.val + q.val) :=
        Finset.sum_congr rfl fun i _ => Finset.sum_congr rfl fun p _ => hcol (fun c => f (1152 * i.val + p.val) c)
    _ = ∑ i : Fin 8, ∑ s : Fin 4, ∑ p : Fin 1152, ∑ q : Fin 2304, f (1152 * i.val + p.val) (2304 * s.val + q.val) :=
        Finset.sum_congr rfl fun i _ => Finset.sum_comm
    _ = ∑ i : Fin 8, ∑ s ∈ Finset.range 4, ∑ p : Fin 1152, ∑ q : Fin 2304, f (1152 * i.val + p.val) (2304 * s + q.val) :=
        Finset.sum_congr rfl fun i _ =>
          (Finset.sum_range (fun s => ∑ p : Fin 1152, ∑ q : Fin 2304, f (1152 * i.val + p.val) (2304 * s + q.val))).symm

/-! ## The table's entries by row and column NUMBER -/

/-- Row r of a [9216, 128] matrix (zero rows past the end, never used). -/
def rowOf (X : (⟨2, ![9216, 128]⟩ : Shape).Idx → EReal) (r : ℕ) : Fin 128 → EReal :=
  fun k => if h : r < 9216 then X (ValueIdx.ix2 (⟨r, h⟩ : Fin 9216) k) else 0

/-- The label of row r (zero past the end, never used). -/
def labOf (g : Fin 9216 → BitVec 32) (r : ℕ) : BitVec 32 := if h : r < 9216 then g ⟨r, h⟩ else 0

theorem rowOf_val (X : (⟨2, ![9216, 128]⟩ : Shape).Idx → EReal) (r : Fin 9216) :
    rowOf X r.val = fun k => X (ValueIdx.ix2 r k) := by
  funext k; unfold rowOf; rw [dif_pos r.isLt]

theorem labOf_val (g : Fin 9216 → BitVec 32) (r : Fin 9216) : labOf g r.val = g r := by
  unfold labOf; rw [dif_pos r.isLt]

/-- Entry (r, c) of the similarity table, -/
def simAt (A B : (⟨2, ![9216, 128]⟩ : Shape).Idx → EReal) (r c : ℕ) : EReal := sim (rowOf A r) (rowOf B c)
/-- and the same kept where the label of row r equals the label of column c. -/
def keptAt (g1 g2 : Fin 9216 → BitVec 32) (A B : (⟨2, ![9216, 128]⟩ : Shape).Idx → EReal) (r c : ℕ) : EReal :=
  kept (labOf g1 r) (labOf g2 c) (simAt A B r c)

end Cert.SupCon

end
-- ==== Proof.TileSums.lean ====
/-
  One tile of the similarity table, as the kernel body computes it, read at an entry over the extended reals.

  The body holds a block of 1152 rows of A, a block of 2304 rows of B, and the labels of those rows. Entry (p, q) of
  its similarity tile is `sim` of row p of the A block and row q of the B block: the matrix unit's product of the A
  block with the TRANSPOSED B block, accumulated into zero, is the inner product of the two rows; a change of float
  format is the identity; the scale is the named reciprocal of the temperature. The tile's two numbers are then plain
  double sums over the tile — a lane sum along each row, kept as a column, followed by a sum down that column, each
  started from zero — of the similarities, and of the similarities kept where the row's label equals the column's.
-/
import proofs.«152631_j46531675685457_2_alg».proof.Proof.Gen.KernelIdeal.Skeleton
import proofs.«152631_j46531675685457_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators
open Idealize.ShloMosaic Idealize.ShloMosaic.ValueIdx

namespace Cert.KernelIdeal.Tile

open Cert.KernelIdeal Cert.KernelIdeal.Gen Cert.SupCon

/-- The kernel's scale is the reciprocal of the temperature's word, by the statement's table of named constants. -/
theorem inv_temperature :
    Named.named (F := Ideal) κ "inv_temperature" (φ := .f32) 0x41C80000#32 = invT :=
  IdealRules.named_const.ideal_named_scalar _ _ _ _ rfl

/-! ## The matrix unit's product at an entry -/

theorem lhs0 (i : S1152x2304.Idx) (q : dot_S1152x128_S128x2304_S1152x2304_1_0_0_1_n_n.contr.Idx) : (dot_S1152x128_S128x2304_S1152x2304_1_0_0_1_n_n.lhsIdx i q 0).val = (i 0).val := by
  unfold DotDims.lhsIdx
  rw [dif_neg (show ¬(0 : Fin S1152x128.rank) ∈ dot_S1152x128_S128x2304_S1152x2304_1_0_0_1_n_n.lhsBatch by decide),
    dif_pos (show (0 : Fin S1152x128.rank) ∈ dot_S1152x128_S128x2304_S1152x2304_1_0_0_1_n_n.lhsNonContracting by decide)]
  rfl
theorem lhs1 (i : S1152x2304.Idx) (q : dot_S1152x128_S128x2304_S1152x2304_1_0_0_1_n_n.contr.Idx) : (dot_S1152x128_S128x2304_S1152x2304_1_0_0_1_n_n.lhsIdx i q 1).val = (q ⟨0, by decide⟩).val :=
  dot_S1152x128_S128x2304_S1152x2304_1_0_0_1_n_n.lhsIdx_val_of_single rfl i q
theorem rhs0 (i : S1152x2304.Idx) (q : dot_S1152x128_S128x2304_S1152x2304_1_0_0_1_n_n.contr.Idx) : (dot_S1152x128_S128x2304_S1152x2304_1_0_0_1_n_n.rhsIdx i q 0).val = (q ⟨0, by decide⟩).val :=
  dot_S1152x128_S128x2304_S1152x2304_1_0_0_1_n_n.rhsIdx_val_of_single rfl i q
theorem rhs1 (i : S1152x2304.Idx) (q : dot_S1152x128_S128x2304_S1152x2304_1_0_0_1_n_n.contr.Idx) : (dot_S1152x128_S128x2304_S1152x2304_1_0_0_1_n_n.rhsIdx i q 1).val = (i 1).val := by
  unfold DotDims.rhsIdx
  rw [dif_neg (show ¬(1 : Fin S128x2304.rank) ∈ dot_S1152x128_S128x2304_S1152x2304_1_0_0_1_n_n.rhsBatch by decide),
    dif_pos (show (1 : Fin S128x2304.rank) ∈ dot_S1152x128_S128x2304_S1152x2304_1_0_0_1_n_n.rhsNonContracting by decide)]
  rfl

/-- A [1152,128] by [128,2304] product into the zero accumulator, at entry (p, q): the sum over the 128 shared
    coordinates of the products. -/
theorem matmul_tile (y0 : FVec Ideal S1152x128 .bf16) (y1 : FVec Ideal S128x2304 .bf16) (p : Fin 1152) (q : Fin 2304) :
    matmul dot_S1152x128_S128x2304_S1152x2304_1_0_0_1_n_n none y0 y1 (constant S1152x2304 .f32 0x00000000#32) (ix2 p q)
      = ∑ k : Fin 128, y0 (ix2 p k) * y1 (ix2 k q) := by
  show FloatOps.matmul dot_S1152x128_S128x2304_S1152x2304_1_0_0_1_n_n none y0 y1 (constant (F := Ideal) S1152x2304 .f32 0x00000000#32) (ix2 p q) = _
  rw [Ideal.matmul_constant_zero_apply, ← Equiv.sum_comp (ValueIdx.contrEquiv1 dot_S1152x128_S128x2304_S1152x2304_1_0_0_1_n_n 128 rfl rfl).symm]
  refine Finset.sum_congr rfl fun k _ => ?_
  have hk := ValueIdx.contrEquiv1_symm_val dot_S1152x128_S128x2304_S1152x2304_1_0_0_1_n_n 128 rfl rfl k
  have el : dot_S1152x128_S128x2304_S1152x2304_1_0_0_1_n_n.lhsIdx (ix2 p q) ((ValueIdx.contrEquiv1 dot_S1152x128_S128x2304_S1152x2304_1_0_0_1_n_n 128 rfl rfl).symm k) = ix2 p k :=
    funext fun a => Fin.ext (by
      match a with
      | ⟨0, _⟩ => exact lhs0 _ _
      | ⟨1, _⟩ => exact (lhs1 _ _).trans hk)
  have er : dot_S1152x128_S128x2304_S1152x2304_1_0_0_1_n_n.rhsIdx (ix2 p q) ((ValueIdx.contrEquiv1 dot_S1152x128_S128x2304_S1152x2304_1_0_0_1_n_n 128 rfl rfl).symm k) = ix2 k q :=
    funext fun a => Fin.ext (by
      match a with
      | ⟨0, _⟩ => exact (rhs0 _ _).trans hk
      | ⟨1, _⟩ => exact rhs1 _ _)
  rw [el, er]

/-! ## The similarity tile at an entry -/

/-- Entry (p, q) of the body's similarity tile is the similarity of row p of the A block and row q of the B block. -/
theorem pay3_eq (x0 : Vec Ideal S1152x128 .bf16) (x1 : Vec Ideal S2304x128 .bf16) (p : Fin 1152) (q : Fin 2304) :
    k0_pay3 (F := Ideal) x0 x1 (ix2 p q) = sim (fun k => x0 (ix2 p k)) (fun k => x1 (ix2 q k)) := by
  unfold k0_pay3
  simp only [exp, mulf, broadcast, shapeCast_self, Ideal.exp_def, Ideal.mulf_def, matmul_tile, inv_temperature, sim]
  refine congrArg (fun s => Ideal.exp (s * invT)) (Finset.sum_congr rfl fun k _ => ?_)
  exact congrArg (x0 (ix2 p k) * ·) (transpose_ix2_apply x1 transposes_S2304x128_p1_0_S128x2304 k q)

/-! ## A tile summed: along each row, then down the column of row sums -/

/-- A [1152, 2304] tile summed by a lane sum along each row, the row sums kept as a [1152, 1] column, then a sum
    down that column kept as a [1, 1] entry — both sums started from zero — is the double sum over the tile. -/
theorem total_eq (T : FVec Ideal S1152x2304 .f32) (hφ : FKind.Formats .f32)
    (hacc : (0x00000000#32 : BitVec 32) = FKind.add.neutral .f32 hφ) :
    shapeCast S1x1 (multiReduction .add [0] S1
        (shapeCast S1152x1 (multiReduction .add [1] S1152 T 0x00000000#32 reduces_S1152x2304_S1152 hφ hacc) shapeCasts_S1152_S1152x1)
        0x00000000#32 reduces_S1152x1_S1 hφ hacc) shapeCasts_S1_S1x1 (ix2 (0 : Fin 1) (0 : Fin 1))
      = ∑ p : Fin 1152, ∑ q : Fin 2304, T (ix2 p q) := by
  rw [shapeCast_a_1a_apply]
  refine (Ideal.multiReduction_add_single _ _ reduces_S1152x1_S1 hφ hacc (ix1 (0 : Fin 1))).trans ?_
  show ∑ p : Fin 1152, _ = _
  refine Finset.sum_congr rfl fun p _ => ?_
  have e : reduces_S1152x1_S1.lift (ix1 (0 : Fin 1)) p = ix2 p (0 : Fin 1) :=
    funext fun a => Fin.ext (by match a with | ⟨0, _⟩ => rfl | ⟨1, _⟩ => rfl)
  rw [e]
  refine (shapeCast_apply _ shapeCasts_S1152_S1152x1 (ix2 p (0 : Fin 1)) (ix1 p) ?_).trans ?_
  · rw [Shape.rowMajor_val_one, Shape.rowMajor_val_two]
    show p.val = p.val * 1 + 0
    omega
  refine (Ideal.multiReduction_add_single T _ reduces_S1152x2304_S1152 hφ hacc (ix1 p)).trans ?_
  show ∑ q : Fin 2304, _ = _
  refine Finset.sum_congr rfl fun q _ => ?_
  exact congrArg T (funext fun a => Fin.ext (by match a with | ⟨0, _⟩ => rfl | ⟨1, _⟩ => rfl))

/-- A [1152, 1] column of labels spread along the rows reads, at (p, q), the label of row p. -/
theorem col_bcast (v : IVec S1152x1 32) (p : Fin 1152) (q : Fin 2304) :
    broadcastTo S1152x2304 v broadcasts_S1152x1_S1152x2304 (ix2 p q) = v (ix2 p (0 : Fin 1)) := by
  refine broadcastTo_apply v _ (ix2 p q) (ix2 p (0 : Fin 1)) fun ax => ?_
  match ax with
  | ⟨0, _⟩ => show p.val = if (1152 : ℕ) = 1 then 0 else p.val; rw [if_neg (by decide)]
  | ⟨1, _⟩ => show 0 = if (1 : ℕ) = 1 then 0 else _; rw [if_pos rfl]

/-- The tile's sum of all similarities. -/
theorem pay5_eq (x0 : Vec Ideal S1152x128 .bf16) (x1 : Vec Ideal S2304x128 .bf16) :
    k0_pay5 (F := Ideal) x0 x1 (ix2 (0 : Fin 1) (0 : Fin 1)) = ∑ p : Fin 1152, ∑ q : Fin 2304, k0_pay3 x0 x1 (ix2 p q) := by
  unfold k0_pay5
  exact total_eq (k0_pay3 x0 x1) _ _

/-- The tile's sum of the similarities whose row label equals the column label. -/
theorem pay4_eq (x0 : Vec Ideal S1152x128 .bf16) (x1 : Vec Ideal S2304x128 .bf16) (x2 : Vec Ideal S1152x1 .i32)
    (x3 : Vec Ideal S1x2304 .i32) :
    k0_pay4 (F := Ideal) x0 x1 x2 x3 (ix2 (0 : Fin 1) (0 : Fin 1))
      = ∑ p : Fin 1152, ∑ q : Fin 2304,
          kept (x2 (ix2 p (0 : Fin 1))) (x3 (ix2 (0 : Fin 1) q)) (k0_pay3 x0 x1 (ix2 p q)) := by
  unfold k0_pay4
  refine (total_eq _ _ _).trans ?_
  refine Finset.sum_congr rfl fun p _ => Finset.sum_congr rfl fun q _ => ?_
  show Scalar.select (IntOp.cmpi .eq (broadcastTo S1152x2304 (shapeCast S1152x1 x2 _) _ (ix2 p q))
      (broadcastTo S1152x2304 (shapeCast S1x2304 x3 _) _ (ix2 p q))) (k0_pay3 x0 x1 (ix2 p q)) (Ideal.ofBits .f32 0x00000000#32) = _
  rw [col_bcast, broadcastTo_1b_ab_apply, shapeCast_self, shapeCast_self]
  rfl

end Cert.KernelIdeal.Tile

end
-- ==== Proof.Blocks.lean ====
/-
  The kernel's tiles as pieces of the whole similarity table.

  Tile (i, j) — point t = 4·i + j of the grid — is handed rows 1152·i … 1152·i + 1151 of the first feature matrix and
  their labels, and rows 2304·j … 2304·j + 2303 of the second and theirs: a block's entry sits in its array at block
  index × block size + the entry's own coordinate, and the four windows' block indices at point t are (t / 4, 0),
  (t % 4, 0), (t / 4, 0) and (0, t % 4). So entry (p, q) of the tile's similarities is entry (1152·i + p, 2304·j + q) of
  the whole table, the tile's two sums are sums of the whole table's entries over the tile's rows and columns, and
  entries (i, 0, 0) and (i, 0, 1) of the output array are those sums taken over the four tiles of row i.
-/
import proofs.«152631_j46531675685457_2_alg».proof.Proof.Accumulate
import proofs.«152631_j46531675685457_2_alg».proof.Proof.TileSums

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.KernelIdeal.Tile Cert.KernelIdeal.Acc Cert.SupCon

variable (m : (ℓ : Loc nD τ sig) → Buf (Elt Ideal) ℓ)

/-- The two feature matrices and the two label vectors as the kernel's launch finds them. -/
abbrev featA (c : Dev nD) : (⟨2, ![9216, 128]⟩ : Shape).Idx → EReal := V m c main_v4
abbrev featB (c : Dev nD) : (⟨2, ![9216, 128]⟩ : Shape).Idx → EReal := V m c main_v9
def lab1 (c : Dev nD) : Fin 9216 → BitVec 32 := fun r => (V m c main_v12 : S9216x1.Idx → BitVec 32) (ix2 r (0 : Fin 1))
def lab2 (c : Dev nD) : Fin 9216 → BitVec 32 := fun q => (V m c main_v15 : S1x9216.Idx → BitVec 32) (ix2 (0 : Fin 1) q)

/-- The input windows' index maps, decided over the grid. -/
theorem idx_facts_in : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4 :=
  (by decide +kernel : ∀ t : Fin grid0.N, _)

theorem row_lt (t : Fin cfg0.N) (p : Fin 1152) : 1152 * (t.val / 4) + p.val < 9216 := by
  have hN : cfg0.N = 32 := N_0
  have := t.isLt; have := p.isLt; omega
theorem col_lt (t : Fin cfg0.N) (q : Fin 2304) : 2304 * (t.val % 4) + q.val < 9216 := by
  have := q.isLt; omega

/-- Row p of the first matrix's block at point t is row 1152·(t / 4) + p of the matrix. -/
theorem iblk0_row (c : Dev nD) (t : Fin cfg0.N) (p : Fin 1152) :
    (fun k : Fin 128 => (iblk m c 0 t : Vec Ideal S1152x128 .bf16) (ix2 p k))
      = rowOf (featA m c) (1152 * (t.val / 4) + p.val) := by
  obtain ⟨e0, e1, -⟩ := idx_facts_in t
  funext k
  unfold rowOf
  rw [dif_pos (row_lt t p)]
  unfold iblk
  rw [View.read_apply]
  show V m c main_v4 _ = V m c main_v4 _
  refine congrArg (V m c main_v4) (funext fun a => Fin.ext ?_)
  match a with
  | ⟨0, _⟩ => show win0_0.index t (0 : Fin 2) * 1152 + 1 * p.val = 1152 * (t.val / 4) + p.val; rw [e0]; omega
  | ⟨1, _⟩ => show win0_0.index t (1 : Fin 2) * 128 + 1 * k.val = k.val; rw [e1]; omega

/-- Row q of the second matrix's block at point t is row 2304·(t % 4) + q of the matrix. -/
theorem iblk1_row (c : Dev nD) (t : Fin cfg0.N) (q : Fin 2304) :
    (fun k : Fin 128 => (iblk m c 1 t : Vec Ideal S2304x128 .bf16) (ix2 q k))
      = rowOf (featB m c) (2304 * (t.val % 4) + q.val) := by
  obtain ⟨-, -, e0, e1, -⟩ := idx_facts_in t
  funext k
  unfold rowOf
  rw [dif_pos (col_lt t q)]
  unfold iblk
  rw [View.read_apply]
  show V m c main_v9 _ = V m c main_v9 _
  refine congrArg (V m c main_v9) (funext fun a => Fin.ext ?_)
  match a with
  | ⟨0, _⟩ => show win0_1.index t (0 : Fin 2) * 2304 + 1 * q.val = 2304 * (t.val % 4) + q.val; rw [e0]; omega
  | ⟨1, _⟩ => show win0_1.index t (1 : Fin 2) * 128 + 1 * k.val = k.val; rw [e1]; omega

/-- The label of row p of the first labels' block at point t. -/
theorem iblk2_lab (c : Dev nD) (t : Fin cfg0.N) (p : Fin 1152) :
    (iblk m c 2 t : Vec Ideal S1152x1 .i32) (ix2 p (0 : Fin 1)) = labOf (lab1 m c) (1152 * (t.val / 4) + p.val) := by
  obtain ⟨-, -, -, -, e0, e1, -⟩ := idx_facts_in t
  unfold labOf
  rw [dif_pos (row_lt t p)]
  unfold lab1 iblk
  rw [View.read_apply]
  show V m c main_v12 _ = V m c main_v12 _
  refine congrArg (V m c main_v12) (funext fun a => Fin.ext ?_)
  match a with
  | ⟨0, _⟩ => show win0_2.index t (0 : Fin 2) * 1152 + 1 * p.val = 1152 * (t.val / 4) + p.val; rw [e0]; omega
  | ⟨1, _⟩ => show win0_2.index t (1 : Fin 2) * 1 + 1 * 0 = 0; rw [e1]

/-- The label of column q of the second labels' block at point t. -/
theorem iblk3_lab (c : Dev nD) (t : Fin cfg0.N) (q : Fin 2304) :
    (iblk m c 3 t : Vec Ideal S1x2304 .i32) (ix2 (0 : Fin 1) q) = labOf (lab2 m c) (2304 * (t.val % 4) + q.val) := by
  obtain ⟨-, -, -, -, -, -, e0, e1⟩ := idx_facts_in t
  unfold labOf
  rw [dif_pos (col_lt t q)]
  unfold lab2 iblk
  rw [View.read_apply]
  show V m c main_v15 _ = V m c main_v15 _
  refine congrArg (V m c main_v15) (funext fun a => Fin.ext ?_)
  match a with
  | ⟨0, _⟩ => show win0_3.index t (0 : Fin 2) * 1 + 1 * 0 = 0; rw [e0]
  | ⟨1, _⟩ => show win0_3.index t (1 : Fin 2) * 2304 + 1 * q.val = 2304 * (t.val % 4) + q.val; rw [e1]; omega

/-- Entry (p, q) of point t's similarity tile is entry (1152·(t / 4) + p, 2304·(t % 4) + q) of the whole table. -/
theorem tile_sim (c : Dev nD) (t : Fin cfg0.N) (p : Fin 1152) (q : Fin 2304) :
    k0_pay3 (F := Ideal) (iblk m c 0 t) (iblk m c 1 t) (ix2 p q)
      = simAt (featA m c) (featB m c) (1152 * (t.val / 4) + p.val) (2304 * (t.val % 4) + q.val) := by
  refine (pay3_eq (iblk m c 0 t) (iblk m c 1 t) p q).trans ?_
  unfold simAt
  rw [iblk0_row m c t p, iblk1_row m c t q]

/-- Point t's sum of all similarities, -/
theorem tile_tot (c : Dev nD) (t : Fin cfg0.N) :
    k0_pay5 (F := Ideal) (iblk m c 0 t) (iblk m c 1 t) (ix2 (0 : Fin 1) (0 : Fin 1))
      = ∑ p : Fin 1152, ∑ q : Fin 2304,
          simAt (featA m c) (featB m c) (1152 * (t.val / 4) + p.val) (2304 * (t.val % 4) + q.val) := by
  refine (pay5_eq (iblk m c 0 t) (iblk m c 1 t)).trans ?_
  exact Finset.sum_congr rfl fun p _ => Finset.sum_congr rfl fun q _ => tile_sim m c t p q

/-- and of the similarities whose row label equals the column label. -/
theorem tile_pos (c : Dev nD) (t : Fin cfg0.N) :
    k0_pay4 (F := Ideal) (iblk m c 0 t) (iblk m c 1 t) (iblk m c 2 t) (iblk m c 3 t) (ix2 (0 : Fin 1) (0 : Fin 1))
      = ∑ p : Fin 1152, ∑ q : Fin 2304,
          keptAt (lab1 m c) (lab2 m c) (featA m c) (featB m c) (1152 * (t.val / 4) + p.val) (2304 * (t.val % 4) + q.val) := by
  refine (pay4_eq (iblk m c 0 t) (iblk m c 1 t) (iblk m c 2 t) (iblk m c 3 t)).trans ?_
  refine Finset.sum_congr rfl fun p _ => Finset.sum_congr rfl fun q _ => ?_
  unfold keptAt
  rw [iblk2_lab m c t p, iblk3_lab m c t q, tile_sim m c t p q]

/-! ## The two entries of each output block the host reads -/

theorem point_lt (i : Fin 8) {s : ℕ} (hs : s < 4) : 4 * i.val + s < cfg0.N := by
  have hN : cfg0.N = 32 := N_0
  have := i.isLt; omega

/-- Entry (i, 0, 0) of the output array: the kept similarities summed over the four tiles of row i. -/
theorem final_pos (c : Dev nD) (i : Fin 8) :
    (final m c (ix3 i (0 : Fin 8) (0 : Fin 128)) : EReal)
      = ∑ s ∈ Finset.range 4, ∑ p : Fin 1152, ∑ q : Fin 2304,
          keptAt (lab1 m c) (lab2 m c) (featA m c) (featB m c) (1152 * i.val + p.val) (2304 * s + q.val) := by
  unfold final
  show (zeroBlock (F := Ideal) (ix3 (0 : Fin 1) (0 : Fin 8) (0 : Fin 128))
    + ∑ s ∈ Finset.range 4, addAt m c (4 * i.val + s) (ix3 (0 : Fin 1) (0 : Fin 8) (0 : Fin 128)) : EReal) = _
  rw [zeroBlock_apply, zero_add]
  refine Finset.sum_congr rfl fun s hs => ?_
  have hs4 : s < 4 := Finset.mem_range.mp hs
  have e1 : (4 * i.val + s) / 4 = i.val := by omega
  have e2 : (4 * i.val + s) % 4 = s := by omega
  show addAt m c (4 * i.val + s) (ix3 (0 : Fin 1) (0 : Fin 8) (0 : Fin 128)) = _
  unfold addAt
  rw [dif_pos (point_lt i hs4)]
  refine (addend_00 (iblk m c 0 ⟨4 * i.val + s, point_lt i hs4⟩) (iblk m c 1 ⟨4 * i.val + s, point_lt i hs4⟩)
    (iblk m c 2 ⟨4 * i.val + s, point_lt i hs4⟩) (iblk m c 3 ⟨4 * i.val + s, point_lt i hs4⟩)).trans ?_
  refine (tile_pos m c ⟨4 * i.val + s, point_lt i hs4⟩).trans ?_
  show ∑ p : Fin 1152, ∑ q : Fin 2304, keptAt (lab1 m c) (lab2 m c) (featA m c) (featB m c)
    (1152 * ((4 * i.val + s) / 4) + p.val) (2304 * ((4 * i.val + s) % 4) + q.val) = _
  rw [e1, e2]

/-- Entry (i, 0, 1) of the output array: all similarities summed over the four tiles of row i. -/
theorem final_tot (c : Dev nD) (i : Fin 8) :
    (final m c (ix3 i (0 : Fin 8) (1 : Fin 128)) : EReal)
      = ∑ s ∈ Finset.range 4, ∑ p : Fin 1152, ∑ q : Fin 2304,
          simAt (featA m c) (featB m c) (1152 * i.val + p.val) (2304 * s + q.val) := by
  unfold final
  show (zeroBlock (F := Ideal) (ix3 (0 : Fin 1) (0 : Fin 8) (1 : Fin 128))
    + ∑ s ∈ Finset.range 4, addAt m c (4 * i.val + s) (ix3 (0 : Fin 1) (0 : Fin 8) (1 : Fin 128)) : EReal) = _
  rw [zeroBlock_apply, zero_add]
  refine Finset.sum_congr rfl fun s hs => ?_
  have hs4 : s < 4 := Finset.mem_range.mp hs
  have e1 : (4 * i.val + s) / 4 = i.val := by omega
  have e2 : (4 * i.val + s) % 4 = s := by omega
  show addAt m c (4 * i.val + s) (ix3 (0 : Fin 1) (0 : Fin 8) (1 : Fin 128)) = _
  unfold addAt
  rw [dif_pos (point_lt i hs4)]
  refine (addend_01 (iblk m c 0 ⟨4 * i.val + s, point_lt i hs4⟩) (iblk m c 1 ⟨4 * i.val + s, point_lt i hs4⟩)
    (iblk m c 2 ⟨4 * i.val + s, point_lt i hs4⟩) (iblk m c 3 ⟨4 * i.val + s, point_lt i hs4⟩)).trans ?_
  refine (tile_tot m c ⟨4 * i.val + s, point_lt i hs4⟩).trans ?_
  show ∑ p : Fin 1152, ∑ q : Fin 2304, simAt (featA m c) (featB m c)
    (1152 * ((4 * i.val + s) / 4) + p.val) (2304 * ((4 * i.val + s) % 4) + q.val) = _
  rw [e1, e2]

end Cert.KernelIdeal.Blocks

end
-- ==== Proof.Glue.lean ====
/-
  Small facts shared by the two programs' ends.

  Both programs finish the same way: from the total P of the kept similarities and the total T of all similarities they
  return −log(P / T) divided by the number of table entries. That chain is carried as ONE function of (P, T),
  `lossFrom`, and never opened: the two programs agree as soon as their P's and T's do.

  The labels reach the two programs through different reshapes of the same [96, 96] label image — one program flattens
  it to a [9216, 1] column and a [1, 9216] row, the other to a [9216] vector — and a reshape keeps the row-major
  position, so entry r of each is the image's entry (r / 96, r % 96).
-/
import Idealize.ShloMosaic.PureOps.Ideal
import Idealize.ShloMosaic.Lib.ValueIdx
import Idealize.ShloMosaic.Lib.Pipeline.Value

noncomputable section

open scoped BigOperators

namespace Cert.SupCon

open Idealize.ShloMosaic Idealize.ShloMosaic.ValueIdx

/-- The loss from the two totals: minus the logarithm of their quotient, over the word for the number of entries. -/
def lossFrom (P T : EReal) : EReal :=
  FloatOps.hostDivf (F := Ideal) (φ := .f32)
    (FloatOps.hostNegf (F := Ideal) (φ := .f32)
      (FloatOps.hostUnary (F := Ideal) (φ := .f32) .log (FloatOps.hostDivf (F := Ideal) (φ := .f32) P T)))
    (FloatOps.ofBits (F := Ideal) .f32 0x4CA20000#32)

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

variable {α : Type}

/-- The label image flattened to a column reads, at (r, 0), what it reads flattened to a vector at r. -/
theorem flat_col (L : (⟨2, ![96, 96]⟩ : Shape).Idx → α) (h1 : (⟨2, ![96, 96]⟩ : Shape).ShapeCasts ⟨2, ![9216, 1]⟩)
    (h : (⟨2, ![96, 96]⟩ : Shape).ShapeCasts ⟨1, ![9216]⟩) (r : Fin 9216) :
    shapeCast ⟨2, ![9216, 1]⟩ L h1 (ix2 r (0 : Fin 1)) = shapeCast ⟨1, ![9216]⟩ L h (ix1 r) := by
  have hr := r.isLt
  have e1 := shapeCast_apply L h1 (ix2 r (0 : Fin 1)) (ix2 (⟨r.val / 96, by omega⟩ : Fin 96) (⟨r.val % 96, by omega⟩ : Fin 96))
    (by rw [Shape.rowMajor_val_two, Shape.rowMajor_val_two]; show r.val / 96 * 96 + r.val % 96 = r.val * 1 + 0; omega)
  have e2 := shapeCast_apply L h (ix1 r) (ix2 (⟨r.val / 96, by omega⟩ : Fin 96) (⟨r.val % 96, by omega⟩ : Fin 96))
    (by rw [Shape.rowMajor_val_two, Shape.rowMajor_val_one]; show r.val / 96 * 96 + r.val % 96 = r.val; omega)
  rw [e1, e2]

/-- The label image flattened to a row reads, at (0, r), what it reads flattened to a vector at r. -/
theorem flat_row (L : (⟨2, ![96, 96]⟩ : Shape).Idx → α) (h1 : (⟨2, ![96, 96]⟩ : Shape).ShapeCasts ⟨2, ![1, 9216]⟩)
    (h : (⟨2, ![96, 96]⟩ : Shape).ShapeCasts ⟨1, ![9216]⟩) (r : Fin 9216) :
    shapeCast ⟨2, ![1, 9216]⟩ L h1 (ix2 (0 : Fin 1) r) = shapeCast ⟨1, ![9216]⟩ L h (ix1 r) := by
  have hr := r.isLt
  have e1 := shapeCast_apply L h1 (ix2 (0 : Fin 1) r) (ix2 (⟨r.val / 96, by omega⟩ : Fin 96) (⟨r.val % 96, by omega⟩ : Fin 96))
    (by rw [Shape.rowMajor_val_two, Shape.rowMajor_val_two]; show r.val / 96 * 96 + r.val % 96 = 0 * 9216 + r.val; omega)
  have e2 := shapeCast_apply L h (ix1 r) (ix2 (⟨r.val / 96, by omega⟩ : Fin 96) (⟨r.val % 96, by omega⟩ : Fin 96))
    (by rw [Shape.rowMajor_val_two, Shape.rowMajor_val_one]; show r.val / 96 * 96 + r.val % 96 = r.val; omega)
  rw [e1, e2]

end Cert.SupCon

end
-- ==== Proof.Tail.lean ====
/-
  The kernel's result: @main's host operations after the launch, applied to the output array.

  The host takes entries (i, 0, 0) and (i, 0, 1) of the eight output blocks, sums each family over i from zero, and
  returns the loss of the two sums. By the block sums of the eight rows of tiles those two sums are the whole table's
  totals, regrouped.
-/
import proofs.«152631_j46531675685457_2_alg».proof.Proof.Blocks
import proofs.«152631_j46531675685457_2_alg».proof.Proof.Glue
import Idealize.ShloMosaic.Lib.StableHlo.Run

noncomputable section

open scoped BigOperators
open Idealize.ShloMosaic Idealize.ShloMosaic.TcCoe Idealize.SL.Sem Idealize.ShloMosaic.ValueIdx

namespace Cert.KernelIdeal.Tail

open Cert.KernelIdeal Cert.KernelIdeal.Gen Cert.KernelIdeal.Acc Cert.KernelIdeal.Blocks Cert.SupCon

variable (m : (ℓ : Loc nD τ sig) → Buf (Elt Ideal) ℓ)

/-- The host's last lines as a function of the output array. -/
def lossOfArray (out : S8x8x128.Idx → EReal) : S_.Idx → EReal :=
  Host.divf (F := Ideal) (Host.negf (F := Ideal) (Host.log (F := Ideal) (Host.divf (F := Ideal)
    (Host.reduceAdd (F := Ideal) (shapeCast S8 (extractStridedSlice S8x1x1 ![0, 0, 0] out slices_S8x8x128_S8x1x1_0_0_0) shapeCasts_S8x1x1_S8)
      (constant (F := Ideal) S_ .f32 0x00000000#32) reducesTo_S8_S_d0 h_S_)
    (Host.reduceAdd (F := Ideal) (shapeCast S8 (extractStridedSlice S8x1x1 ![0, 0, 1] out slices_S8x8x128_S8x1x1_0_0_1) shapeCasts_S8x1x1_S8)
      (constant (F := Ideal) S_ .f32 0x00000000#32) reducesTo_S8_S_d0 h_S_))))
    (constant (F := Ideal) S_ .f32 0x4CA20000#32)

/-- The output array as the host's last lines find it. -/
theorem out_eq (c : Dev nD) :
    Pipeline.withArrays (cfgs 0).spec c (V0 m c) (fun w => (dats m 0 c).arrAt w (cfgs 0).N) (Proc.devRef .tc main_v16)
      = final m c :=
  (Pipeline.withArrays_arr spec0 launch0.win.arr_inj c _ _ 4).trans (final_eq m c)

/-- The kernel's result is the host's last lines of the output array. -/
theorem tail_eq (c : Dev nD) :
    (Pipeline.afterTail₀ cfgs (dats m) 0 (V0 m) [hostOps1] c main_v26 : S_.Idx → EReal) = lossOfArray (final m c) := by
  unfold Pipeline.afterTail₀
  show StableHlo.after hostOps1 _ (Proc.devRef .tc main_v26) = _
  after_results
  rw [out_eq m c]
  rfl

/-- The host's sum over the eight blocks, started from zero. -/
theorem hostSum8 (x : FVec Ideal S8 .f32) (i : S_.Idx) :
    Host.reduceAdd (F := Ideal) x (constant (F := Ideal) S_ .f32 0x00000000#32) reducesTo_S8_S_d0 h_S_ i
      = ∑ k : Fin 8, x (ix1 k) := by
  simp only [Host.reduceAdd, Ideal.hostReduceAdd_def]
  refine (Ideal.hostReduceAdd_total reducesTo_S8_S_d0 (fun b => b.elim0) x _ i).trans ?_
  rw [sum_idx1]
  show Ideal.ofBits .f32 0x00000000#32 + _ = _
  rw [Ideal.ofBits_zero_f32, zero_add]

/-- Entry k of the host's slice [0:8, 0:1, b:b+1] of the output array, flattened, is the array's entry (k, 0, b). -/
theorem slice8 (out : S8x8x128.Idx → EReal) (b : Fin 128) (off : Fin 3 → ℕ) (hoff : off = ![0, 0, b.val])
    (h : S8x8x128.Slices off S8x1x1) (k : Fin 8) :
    shapeCast S8 (extractStridedSlice S8x1x1 off out h) shapeCasts_S8x1x1_S8 (ix1 k) = out (ix3 k (0 : Fin 8) b) := by
  subst hoff
  refine (shapeCast_apply _ shapeCasts_S8x1x1_S8 (ix1 k) (ix3 k (0 : Fin 1) (0 : Fin 1)) ?_).trans ?_
  · rw [Shape.rowMajor_val_three, Shape.rowMajor_val_one]
    show (k.val * 1 + 0) * 1 + 0 = k.val
    omega
  refine extractStridedSlice_apply _ out h (ix3 k (0 : Fin 1) (0 : Fin 1)) (ix3 k (0 : Fin 8) b) fun a => ?_
  match a with
  | ⟨0, _⟩ => show k.val = 0 + k.val; omega
  | ⟨1, _⟩ => show 0 = 0 + 0; rfl
  | ⟨2, _⟩ => show b.val = b.val + 0; omega

/-- The host's last lines at the result's one index: the loss of the two sums over the blocks. -/
theorem lossOfArray_apply (out : S8x8x128.Idx → EReal) (i : S_.Idx) :
    lossOfArray out i = lossFrom (∑ k : Fin 8, out (ix3 k (0 : Fin 8) (0 : Fin 128))) (∑ k : Fin 8, out (ix3 k (0 : Fin 8) (1 : Fin 128))) := by
  unfold lossOfArray lossFrom
  show FloatOps.hostDivf (F := Ideal) (φ := .f32) (FloatOps.hostNegf (F := Ideal) (φ := .f32) (FloatOps.hostUnary (F := Ideal) (φ := .f32) .log
    (FloatOps.hostDivf (F := Ideal) (φ := .f32) (Host.reduceAdd (F := Ideal) _ _ reducesTo_S8_S_d0 h_S_ i)
      (Host.reduceAdd (F := Ideal) _ _ reducesTo_S8_S_d0 h_S_ i)))) (FloatOps.ofBits (F := Ideal) .f32 0x4CA20000#32) = _
  rw [hostSum8, hostSum8]
  congr 4
  · exact Finset.sum_congr rfl fun k _ => slice8 out 0 _ rfl _ k
  · exact Finset.sum_congr rfl fun k _ => slice8 out 1 _ rfl _ k

/-- THE KERNEL'S RESULT: the loss of the whole table's two totals. -/
theorem result_eq (c : Dev nD) (i : S_.Idx) :
    (Pipeline.afterTail₀ cfgs (dats m) 0 (V0 m) [hostOps1] c main_v26 : S_.Idx → EReal) i
      = lossFrom (∑ r : Fin 9216, ∑ q : Fin 9216, keptAt (lab1 m c) (lab2 m c) (featA m c) (featB m c) r.val q.val)
          (∑ r : Fin 9216, ∑ q : Fin 9216, simAt (featA m c) (featB m c) r.val q.val) := by
  rw [tail_eq m c, lossOfArray_apply]
  rw [sum_tiles (keptAt (lab1 m c) (lab2 m c) (featA m c) (featB m c)), sum_tiles (simAt (featA m c) (featB m c))]
  exact congrArg₂ lossFrom (Finset.sum_congr rfl fun k _ => final_pos m c k)
    (Finset.sum_congr rfl fun k _ => final_tot m c k)

end Cert.KernelIdeal.Tail

end
-- ==== Proof.Prefix.lean ====
/-
  What the kernel's launch finds in its four operands: @main's host operations before the launch, read back.

  Each feature matrix is a slice of the input (image 0, image 1), with its channel axis moved last and the two pixel axes
  flattened, then converted to the narrower float format; each label array is a slice of the label input reshaped to a
  [9216, 1] column (image 0) or a [1, 9216] row (image 1).
-/
import proofs.«152631_j46531675685457_2_alg».proof.Proof.Gen.KernelIdeal.Frame
import Idealize.ShloMosaic.Lib.StableHlo.Run

noncomputable section

open Idealize.ShloMosaic Idealize.ShloMosaic.TcCoe Idealize.SL.Sem

namespace Cert.KernelIdeal.Prefix

open Cert.KernelIdeal Cert.KernelIdeal.Gen

variable (m : (ℓ : Loc nD τ sig) → Buf (Elt Ideal) ℓ)

/-- Image b's features as a [9216, 128] matrix: pixels by channels. -/
def featOf (x : S4x128x96x96.Idx → EReal) (off : Fin 4 → ℕ) (h : S4x128x96x96.Slices off S1x128x96x96) :
    S9216x128.Idx → EReal :=
  shapeCast S9216x128 (transpose S96x96x128 [1, 2, 0]
    (shapeCast S128x96x96 (extractStridedSlice S1x128x96x96 off x h) shapeCasts_S1x128x96x96_S128x96x96)
    transposes_S128x96x96_S96x96x128_1_2_0) shapeCasts_S96x96x128_S9216x128

/-- Image b's label image, [96, 96]. -/
def labelImage (x : S4x1x96x96.Idx → BitVec 32) (off : Fin 4 → ℕ) (h : S4x1x96x96.Slices off S1x1x96x96) :
    S96x96.Idx → BitVec 32 :=
  shapeCast S96x96 (extractStridedSlice S1x1x96x96 off x h) shapeCasts_S1x1x96x96_S96x96

theorem V_v4 (c : Dev nD) : (V m c main_v4 : S9216x128.Idx → EReal)
    = truncf (F := Ideal) .bf16 (featOf (m ((c : Thread nD τ).loc main_arg0)) ![0, 0, 0, 0] slices_S4x128x96x96_S1x128x96x96_0_0_0_0)
        bitsLt_bf16_f32 := by
  show StableHlo.after hostOps0 (fun b => m (c, b)) (Proc.devRef .tc main_v4) = _
  after_results
  rfl

theorem V_v9 (c : Dev nD) : (V m c main_v9 : S9216x128.Idx → EReal)
    = truncf (F := Ideal) .bf16 (featOf (m ((c : Thread nD τ).loc main_arg0)) ![1, 0, 0, 0] slices_S4x128x96x96_S1x128x96x96_1_0_0_0)
        bitsLt_bf16_f32 := by
  show StableHlo.after hostOps0 (fun b => m (c, b)) (Proc.devRef .tc main_v9) = _
  after_results
  rfl

theorem V_v12 (c : Dev nD) : (V m c main_v12 : S9216x1.Idx → BitVec 32)
    = shapeCast S9216x1 (labelImage (m ((c : Thread nD τ).loc main_arg1)) ![0, 0, 0, 0] slices_S4x1x96x96_S1x1x96x96_0_0_0_0)
        shapeCasts_S96x96_S9216x1 := by
  show StableHlo.after hostOps0 (fun b => m (c, b)) (Proc.devRef .tc main_v12) = _
  after_results
  rfl

theorem V_v15 (c : Dev nD) : (V m c main_v15 : S1x9216.Idx → BitVec 32)
    = shapeCast S1x9216 (labelImage (m ((c : Thread nD τ).loc main_arg1)) ![1, 0, 0, 0] slices_S4x1x96x96_S1x1x96x96_1_0_0_0)
        shapeCasts_S96x96_S1x9216 := by
  show StableHlo.after hostOps0 (fun b => m (c, b)) (Proc.devRef .tc main_v15) = _
  after_results
  rfl

end Cert.KernelIdeal.Prefix

end
-- ==== Proof.Reference.lean ====
/-
  The reference's result over the extended reals: the loss of the whole similarity table's two totals.

  The reference builds the [9216, 9216] table at once. Entry (r, c) is the exponential of the inner product of row r of
  the first feature matrix and row c of the second, DIVIDED by the temperature's float word — which is the product
  with the word's reciprocal, on every extended real. The mask compares the label of row r, spread along the rows,
  with the label of column c, spread along the columns. The two totals are sums over every entry of the table, started
  from zero: double sums over the row and the column.
-/
import proofs.«152631_j46531675685457_2_alg».proof.Proof.Gen.ReferenceIdeal.Read
import proofs.«152631_j46531675685457_2_alg».proof.Proof.Spec
import proofs.«152631_j46531675685457_2_alg».proof.Proof.Glue

noncomputable section

open scoped BigOperators
open Idealize.ShloMosaic Idealize.ShloMosaic.ValueIdx

namespace Cert.ReferenceIdeal.RefValue

open Cert.ReferenceIdeal Cert.ReferenceIdeal.Read Cert.SupCon

variable (x0 : (⟨S4x128x96x96, .f32⟩ : BufTy).Contents (Elt Ideal)) (x1 : (⟨S4x1x96x96, .i32⟩ : BufTy).Contents (Elt Ideal))

/-- The reference's two feature matrices and two label vectors. -/
abbrev refA : (⟨2, ![9216, 128]⟩ : Shape).Idx → EReal := val_main_v3 (F := Ideal) x0
abbrev refB : (⟨2, ![9216, 128]⟩ : Shape).Idx → EReal := val_main_v7 (F := Ideal) x0
def refG1 : Fin 9216 → BitVec 32 := fun r => (val_main_v10 (F := Ideal) x1 : S9216.Idx → BitVec 32) (ix1 r)
def refG2 : Fin 9216 → BitVec 32 := fun r => (val_main_v13 (F := Ideal) x1 : S9216.Idx → BitVec 32) (ix1 r)

/-- Entry (r, c) of the reference's similarity table. -/
theorem sim_entry (r c : Fin 9216) :
    val_main_v18 (F := Ideal) x0 (ix2 r c) = simAt (refA x0) (refB x0) r.val c.val := by
  rw [val_main_v18_apply, val_main_v17_apply, val_main_v15_apply, val_main_v16_apply, val_main_cst_apply]
  simp only [Ideal.hostUnary_exp_def, Ideal.hostDivf_def, Ideal.ofBits_def]
  rw [div_D]
  unfold simAt sim
  rw [rowOf_val, rowOf_val]
  refine congrArg (fun s => Ideal.exp (s * invT)) (Finset.sum_congr rfl fun k _ => ?_)
  rw [val_main_v14_apply]
  have el : lidx_main_v15 (ix2 r c) k = ix2 r k := funext fun a => by
    match a with | ⟨0, _⟩ => rfl | ⟨1, _⟩ => rfl
  have er : idx_main_v14 (ridx_main_v15 (ix2 r c) k) = ix2 c k := funext fun a => by
    match a with | ⟨0, _⟩ => rfl | ⟨1, _⟩ => rfl
  rw [el, er]

/-- Entry (r, c) of the reference's masked table. -/
theorem kept_entry (r c : Fin 9216) :
    val_main_v24 (F := Ideal) x0 x1 (ix2 r c) = keptAt (refG1 x1) (refG2 x1) (refA x0) (refB x0) r.val c.val := by
  rw [val_main_v24_apply, val_main_v23_apply, val_main_v21_apply, val_main_v19_apply, val_main_v22_apply,
    val_main_v20_apply, val_main_call0_v0_apply, val_main_cst_0_apply, sim_entry]
  unfold keptAt kept
  rw [labOf_val, labOf_val]
  have e1 : idx_main_v19 (idx_main_v21 (ix2 r c)) = ix1 r := funext fun a => by
    match a with | ⟨0, _⟩ => rfl
  have e2 : idx_main_v20 (idx_main_v22 (ix2 r c)) = ix1 c := funext fun a => by
    match a with | ⟨0, _⟩ => rfl
  rw [e1, e2]
  rfl

/-- The reference's total of all similarities, -/
theorem total_eq (i : S_.Idx) :
    val_main_v26 (F := Ideal) x0 i = ∑ r : Fin 9216, ∑ c : Fin 9216, simAt (refA x0) (refB x0) r.val c.val := by
  rw [val_main_v26_apply, sum_idx2, val_main_cst_2_apply]
  show Ideal.ofBits .f32 0x00000000#32 + _ = _
  rw [Ideal.ofBits_zero_f32, zero_add]
  exact Finset.sum_congr rfl fun r _ => Finset.sum_congr rfl fun c _ => sim_entry x0 r c

/-- and of the similarities whose row label equals the column label. -/
theorem pos_eq (i : S_.Idx) :
    val_main_v25 (F := Ideal) x0 x1 i
      = ∑ r : Fin 9216, ∑ c : Fin 9216, keptAt (refG1 x1) (refG2 x1) (refA x0) (refB x0) r.val c.val := by
  rw [val_main_v25_apply, sum_idx2, val_main_cst_1_apply]
  show Ideal.ofBits .f32 0x00000000#32 + _ = _
  rw [Ideal.ofBits_zero_f32, zero_add]
  exact Finset.sum_congr rfl fun r _ => Finset.sum_congr rfl fun c _ => kept_entry x0 x1 r c

/-- THE REFERENCE'S RESULT: the loss of the whole table's two totals. -/
theorem result_eq (i : S_.Idx) :
    val_main_v30 (F := Ideal) x0 x1 i
      = lossFrom (∑ r : Fin 9216, ∑ c : Fin 9216, keptAt (refG1 x1) (refG2 x1) (refA x0) (refB x0) r.val c.val)
          (∑ r : Fin 9216, ∑ c : Fin 9216, simAt (refA x0) (refB x0) r.val c.val) := by
  rw [val_main_v30_apply, val_main_v29_apply, val_main_v28_apply, val_main_v27_apply, val_main_cst_3_apply,
    pos_eq, total_eq]
  rfl

end Cert.ReferenceIdeal.RefValue

end
-- ==== Proof.Bridge.lean ====
/-
  The two programs compute the loss of the same table.

  The kernel's host lines before the launch and the reference's first lines are the same operations on the same
  inputs — a slice of the input, its channel axis moved last, the pixel axes flattened — and the kernel's extra change of
  float format is the identity on extended reals: the feature matrices are equal. The label vectors are the same label
  image flattened, to a column and a row on one side and to a vector on the other: equal entry by entry. So the two
  results are `lossFrom` of the same two totals.
-/
import proofs.«152631_j46531675685457_2_alg».proof.Proof.Tail
import proofs.«152631_j46531675685457_2_alg».proof.Proof.Prefix
import proofs.«152631_j46531675685457_2_alg».proof.Proof.Reference

noncomputable section

open scoped BigOperators
open Idealize.ShloMosaic Idealize.ShloMosaic.TcCoe Idealize.SL.Sem Idealize.ShloMosaic.ValueIdx

namespace Cert.Proof.Bridge

open Cert.SupCon

variable (m : (ℓ : Loc Cert.KernelIdeal.nD Cert.KernelIdeal.τ Cert.KernelIdeal.sig) → Buf (Elt Ideal) ℓ) (c : Dev Cert.KernelIdeal.nD)

/-- A narrowing change of float format is the identity on extended reals. -/
theorem truncf_id {s : Shape} {φ ψ : FTy} (a : FVec Ideal s φ) (h : ψ.bits < φ.bits) :
    (truncf (F := Ideal) ψ a h : s.Idx → EReal) = a := funext fun _ => rfl

theorem featA_eq : Cert.KernelIdeal.Blocks.featA m c
    = Cert.ReferenceIdeal.RefValue.refA (m ((c : Thread Cert.KernelIdeal.nD Cert.KernelIdeal.τ).loc Cert.KernelIdeal.main_arg0)) := by
  show (Cert.KernelIdeal.Gen.V m c Cert.KernelIdeal.main_v4 : Cert.KernelIdeal.S9216x128.Idx → EReal) = _
  rw [Cert.KernelIdeal.Prefix.V_v4 m c, truncf_id]
  rfl

theorem featB_eq : Cert.KernelIdeal.Blocks.featB m c
    = Cert.ReferenceIdeal.RefValue.refB (m ((c : Thread Cert.KernelIdeal.nD Cert.KernelIdeal.τ).loc Cert.KernelIdeal.main_arg0)) := by
  show (Cert.KernelIdeal.Gen.V m c Cert.KernelIdeal.main_v9 : Cert.KernelIdeal.S9216x128.Idx → EReal) = _
  rw [Cert.KernelIdeal.Prefix.V_v9 m c, truncf_id]
  rfl

theorem lab1_eq : Cert.KernelIdeal.Blocks.lab1 m c
    = Cert.ReferenceIdeal.RefValue.refG1 (m ((c : Thread Cert.KernelIdeal.nD Cert.KernelIdeal.τ).loc Cert.KernelIdeal.main_arg1)) := by
  funext r
  unfold Cert.KernelIdeal.Blocks.lab1 Cert.ReferenceIdeal.RefValue.refG1
  rw [Cert.KernelIdeal.Prefix.V_v12 m c]
  refine (flat_col _ Cert.KernelIdeal.Facts₀.shapeCasts_S96x96_S9216x1 Cert.ReferenceIdeal.Facts₀.shapeCasts_S96x96_S9216 r).trans ?_
  rfl

theorem lab2_eq : Cert.KernelIdeal.Blocks.lab2 m c
    = Cert.ReferenceIdeal.RefValue.refG2 (m ((c : Thread Cert.KernelIdeal.nD Cert.KernelIdeal.τ).loc Cert.KernelIdeal.main_arg1)) := by
  funext r
  unfold Cert.KernelIdeal.Blocks.lab2 Cert.ReferenceIdeal.RefValue.refG2
  rw [Cert.KernelIdeal.Prefix.V_v15 m c]
  refine (flat_row _ Cert.KernelIdeal.Facts₀.shapeCasts_S96x96_S1x9216 Cert.ReferenceIdeal.Facts₀.shapeCasts_S96x96_S9216 r).trans ?_
  rfl

/-- THE BRIDGE: the kernel's result is the reference's term of the same inputs. -/
theorem result_eq (i : Cert.KernelIdeal.S_.Idx) :
    (Pipeline.afterTail₀ Cert.KernelIdeal.cfgs (Cert.KernelIdeal.Gen.dats m) 0 (Cert.KernelIdeal.Gen.V0 m) [Cert.KernelIdeal.Gen.hostOps1] c Cert.KernelIdeal.main_v26
        : Cert.KernelIdeal.S_.Idx → EReal) i
      = Cert.ReferenceIdeal.Read.val_main_v30 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1)) i := by
  rw [Cert.KernelIdeal.Tail.result_eq m c i, Cert.ReferenceIdeal.RefValue.result_eq, featA_eq m c, featB_eq m c, lab1_eq m c, lab2_eq m c]

end Cert.Proof.Bridge

end
-- ==== Proof.lean ====
/-
  The proof of `Cert.Claim`: a tiled contrastive-loss kernel against its whole-table reference.

  Both programs take two images' [9216, 128] feature matrices A, B and label vectors, form the similarity table
  sim(r, c) = exp((Σ_k A(r,k)·B(c,k)) / T), and return −log(P / T_all) / 9216² with T_all the sum of the whole table and
  P the sum of its entries whose row label equals the column label. The reference builds the table at once and divides by
  the temperature's float word D. The kernel walks an 8 × 4 grid of 1152 × 2304 tiles, multiplies by the reciprocal —
  which the statement names as exactly 1/D — keeps the two sums of each row of tiles in one output block, resetting it at
  the row's first tile and adding at the later ones, and lets the host add the eight blocks.

  Over the extended reals the two are one function: dividing by a nonzero real is multiplying by its reciprocal, at the
  infinities too; a change of float format is the identity; the matrix unit's product into zero and the host's contraction
  are the same sum over the 128 channels; and sums over finite index sets in a commutative monoid may be regrouped and
  reordered freely, so the tile-by-tile totals are the whole-table totals. No finiteness of the inputs is used.

  The three frames are the generated ones (the reference's is its generated run with the result dropped); the one
  rewrite of the idealization is the named reciprocal's statement.
-/
import proofs.«152631_j46531675685457_2_alg».proof.Defs
import proofs.«152631_j46531675685457_2_alg».proof.Proof.Gen.Kernel
import proofs.«152631_j46531675685457_2_alg».proof.Proof.Gen.Kernel.Skeleton
import proofs.«152631_j46531675685457_2_alg».proof.Proof.Gen.Kernel.Launch
import proofs.«152631_j46531675685457_2_alg».proof.Proof.Gen.Kernel.Points
import proofs.«152631_j46531675685457_2_alg».proof.Proof.Gen.Kernel.Frame
import proofs.«152631_j46531675685457_2_alg».proof.Proof.Gen.KernelIdeal
import proofs.«152631_j46531675685457_2_alg».proof.Proof.Gen.KernelIdeal.Skeleton
import proofs.«152631_j46531675685457_2_alg».proof.Proof.Gen.KernelIdeal.Launch
import proofs.«152631_j46531675685457_2_alg».proof.Proof.Gen.KernelIdeal.Points
import proofs.«152631_j46531675685457_2_alg».proof.Proof.Gen.KernelIdeal.Frame
import proofs.«152631_j46531675685457_2_alg».proof.Proof.Gen.ReferenceIdeal
import proofs.«152631_j46531675685457_2_alg».proof.Proof.Gen.Pre_finite_inputs
import proofs.«152631_j46531675685457_2_alg».proof.Proof.Gen.ReferenceIdeal.Run
import proofs.«152631_j46531675685457_2_alg».proof.Proof.Gen.ReferenceIdeal.Read
import proofs.«152631_j46531675685457_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: the statement's table gives the scale's name the value 1/D, and the printed
    constant is that value over the extended reals. -/
theorem preserves : Cert.preserves_Kernel_KernelIdeal :=
  IdealRules.named_const.statement Cert.KernelIdeal.κ "inv_temperature" .f32 0x41C80000#32
    ((134217728 / 5368709 : ℝ) : EReal) rfl

/-- The idealized kernel's run, read: its result at the host's last lines of the output array, its arguments
    unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v26)
        = Pipeline.afterTail₀ Cert.KernelIdeal.cfgs (Cert.KernelIdeal.Gen.dats m) 0 (Cert.KernelIdeal.Gen.V0 m) [Cert.KernelIdeal.Gen.hostOps1] c Cert.KernelIdeal.main_v26
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨(h c).2 Cert.KernelIdeal.main_v26 (Pipeline.mem_restRefs_of Cert.KernelIdeal.main_v26 (by decide) (by decide)),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩)
    (Cert.KernelIdeal.Gen.run_main m ρ)

/-- Over the extended reals the kernel's result and the reference's, from memories agreeing on the inputs, are the
    loss of the same two totals. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v26,
    kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2]
  exact funext fun i => (Bridge.result_eq m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
